-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S16x7 .f32) (main_arg5 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x16 .f32) (main_arg3 : FVec F S16 .f32) (main_arg4 : FVec F S16x7 .f32) (main_arg5 : FVec F S7 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S1x7 : Shape := ⟨2, ![1, 7]⟩
abbrev S10000x7 : Shape := ⟨2, ![10000, 7]⟩
abbrev S400x10000 : Shape := ⟨2, ![400, 10000]⟩
abbrev S400x7 : Shape := ⟨2, ![400, 7]⟩
abbrev S10000x16 : Shape := ⟨2, ![10000, 16]⟩
abbrev S400x16 : Shape := ⟨2, ![400, 16]⟩

abbrev nBuf : Space → Nat
  | .hbm => 11
  | .vmem => 17
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x16, .f32⟩
  | .hbm, ⟨7, _⟩ => ⟨S1x7, .f32⟩
  | .hbm, ⟨8, _⟩ => ⟨S10000x7, .f32⟩
  | .hbm, ⟨9, _⟩ => ⟨S10000x10000, .bf16⟩
  | .hbm, ⟨10, _⟩ => ⟨S10000x7, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x7, .f32⟩
  | .local _ .vmem, ⟨4, _⟩ => ⟨S400x10000, .f32⟩
  | .local _ .vmem, ⟨5, _⟩ => ⟨S400x10000, .f32⟩
  | .local _ .vmem, ⟨6, _⟩ => ⟨S400x7, .f32⟩
  | .local _ .vmem, ⟨7, _⟩ => ⟨S400x7, .f32⟩
  | .local _ .vmem, ⟨8, _⟩ => ⟨S400x10000, .bf16⟩
  | .local _ .vmem, ⟨9, _⟩ => ⟨S400x10000, .bf16⟩
  | .local _ .vmem, ⟨10, _⟩ => ⟨S10000x16, .f32⟩
  | .local _ .vmem, ⟨11, _⟩ => ⟨S400x10000, .bf16⟩
  | .local _ .vmem, ⟨12, _⟩ => ⟨S400x10000, .bf16⟩
  | .local _ .vmem, ⟨13, _⟩ => ⟨S10000x7, .f32⟩
  | .local _ .vmem, ⟨14, _⟩ => ⟨S1x7, .f32⟩
  | .local _ .vmem, ⟨15, _⟩ => ⟨S400x7, .f32⟩
  | .local _ .vmem, ⟨16, _⟩ => ⟨S400x7, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16_S1x16 : S16.ShapeCasts S1x16
  shapeCasts_S7_S1x7 : S7.ShapeCasts S1x7
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x7_S16x7_0_0 : ∀ a, (![0, 0] : Fin 2 → Nat) a + S16x7.size a ≤ S16x7.size a
  h_S16x7 : 0 < S16x7.numel
  inb_S400x7_S400x7_0_0 : ∀ a, (![0, 0] : Fin 2 → Nat) a + S400x7.size a ≤ S400x7.size a
  h_S400x7 : 0 < S400x7.numel
  shapeCasts_S400x10000_S400x10000 : S400x10000.ShapeCasts S400x10000
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x7.size a ≤ S16x7.size a
  hwx0_3 : ∀ i : grid0.Coords, EltTy.bits .f32 = 32 ∨ (Rect.block (s := S16x7) S16x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x7.size a ≤ S10000x7.size a
  hwx0_5 : ∀ i : grid0.Coords, EltTy.bits .f32 = 32 ∨ (Rect.block (s := S10000x7) S400x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x7.size a ≤ S10000x7.size a
  hwx1_1 : ∀ i : grid1.Coords, EltTy.bits .f32 = 32 ∨ (Rect.block (s := S10000x7) S10000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x7.size a ≤ S1x7.size a
  hwx1_2 : ∀ i : grid1.Coords, EltTy.bits .f32 = 32 ∨ (Rect.block (s := S1x7) S1x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x7.size a ≤ S10000x7.size a
  hwx1_3 : ∀ i : grid1.Coords, EltTy.bits .f32 = 32 ∨ (Rect.block (s := S10000x7) S400x7.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x7.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S10000x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S16 : Shape := ⟨1, ![16]⟩
abbrev S16x7 : Shape := ⟨2, ![16, 7]⟩
abbrev S7 : Shape := ⟨1, ![7]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.K.Region0.lean ====
/-
  The first launch, point by point, at any float instance.

  Its grid has 26 points. The body is handed the whole feature matrix X, the weights W1 and W2, the bias row b1, and
  one 400-row stripe of the operator L — stripe max(t - 1, 0) at point t — and writes two outputs through the same
  stripe index: 400 rows of the second support, and the stripe of L narrowed to bf16. Beside the windows it keeps a
  scratch buffer of its own, 10000×16, across the points.
    point 0        : the scratch is filled with X·W1 (the first support); nothing is stored into the outputs,
                     and their blocks are not written back there (the next point has the same stripe index);
    points 1 … 25  : the scratch is read, never stored into; both output blocks are stored whole:
                     rows of relu(stripe · scratch + b1) · W2, and the narrowed stripe.
  So from point 1 on the scratch holds one fixed array, a function of X's and W1's blocks at point 0, and what
  the outputs' buffers hold after point t ≥ 1 is a function of the point's input blocks and that array. The region's
  invariant says exactly this: before the first point the scratch holds anything; afterwards, the first support.
  Stated at a parameter V, the contents of the core's buffers when the launch is entered.
-/
import proofs.«129540_g70901320122454_cont_9to1_m_1154_12_alg».proof.Proof.Gen.Kernel.Launch
import proofs.«129540_g70901320122454_cont_9to1_m_1154_12_alg».proof.Proof.Gen.Kernel.Skeleton
import proofs.«129540_g70901320122454_cont_9to1_m_1154_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the stripe window
    is not fetched at point 1, where its index has not moved; the four whole-array windows only at point 0). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first point": the body's first conditional. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is a later point": the body's second conditional. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

/-- The two output windows are idle at the first point and not written back there; live at every later point. -/
theorem idleAt0_5 : ∀ t : Fin cfg0.N, t.val = 0 → cfg0.idle 5 (grid0.coords t) = true := by decide +kernel
theorem noFlush0_5 : ∀ t : Fin cfg0.N, t.val = 0 → (cfg0.win 5).flush t = false := by decide +kernel
theorem liveAt0_5 : ∀ t : Fin cfg0.N, t.val ≠ 0 → cfg0.idle 5 (grid0.coords t) = false := by decide +kernel
theorem idleAt0_6 : ∀ t : Fin cfg0.N, t.val = 0 → cfg0.idle 6 (grid0.coords t) = true := by decide +kernel
theorem noFlush0_6 : ∀ t : Fin cfg0.N, t.val = 0 → (cfg0.win 6).flush t = false := by decide +kernel
theorem liveAt0_6 : ∀ t : Fin cfg0.N, t.val ≠ 0 → cfg0.idle 6 (grid0.coords t) = false := by decide +kernel

/-! ## The body's accesses and what its stores leave -/

abbrev rX : Rect S10000x128 := Rect.unit (s := S10000x128) ![0, 0] S10000x128.size inb_S10000x128_S10000x128_0_0
abbrev rW1 : Rect S128x16 := Rect.unit (s := S128x16) ![0, 0] S128x16.size inb_S128x16_S128x16_0_0
abbrev rBias : Rect S1x16 := Rect.unit (s := S1x16) ![0, 0] S1x16.size inb_S1x16_S1x16_0_0
abbrev rW2 : Rect S16x7 := Rect.unit (s := S16x7) ![0, 0] S16x7.size inb_S16x7_S16x7_0_0
abbrev rL : Rect S400x10000 := Rect.unit (s := S400x10000) ![0, 0] S400x10000.size inb_S400x10000_S400x10000_0_0
abbrev rO : Rect S400x7 := Rect.unit (s := S400x7) ![0, 0] S400x7.size inb_S400x7_S400x7_0_0
abbrev rS : Rect S10000x16 := Rect.unit (s := S10000x16) ![0, 0] S10000x16.size inb_S10000x16_S10000x16_0_0

/-- The scratch operand: a whole scoped buffer of the kernel's own, passed beside the windows. -/
abbrev scM : Memref sig .tc .vmem S10000x16 .f32 := Memref.whole cc0_scratch0

/-- What the first point's store leaves in the scratch: the product of X's and W1's buffers. -/
def s1of (x0 : Vec F S10000x128 .f32) (x1 : Vec F S128x16 .f32) : Vec F S10000x16 .f32 :=
  View.canon [⟨rS, k0_pay1 (View.ld x0 rX) (View.ld x1 rW1)⟩]
/-- What a later point's stores leave in the second-support window's buffer, -/
def out0_5 (x4 : Vec F S400x10000 .f32) (xs : Vec F S10000x16 .f32) (x2 : Vec F S1x16 .f32) (x3 : Vec F S16x7 .f32) : Vec F S400x7 .f32 :=
  View.canon [⟨rO, k0_pay3 (View.ld x4 rL) (View.ld xs rS) (View.ld x2 rBias) (View.ld x3 rW2)⟩]
/-- and in the narrowed-stripe window's. -/
def out0_6 (x4 : Vec F S400x10000 .f32) : Vec F S400x10000 .bf16 :=
  View.canon [⟨rL, k0_pay2 (View.ld x4 rL)⟩]

theorem coverS (p0 : Vec F S10000x16 .f32) (y : S10000x16.Idx) :
    ∃ pc ∈ ([⟨rS, p0⟩] : List (View.Piece (Elt F) S10000x16 .f32)), y ∈ pc.1.set :=
  View.cover_of_tiled [⟨rS, p0⟩] S10000x16.size (by rfl) y
theorem cover5 (p0 : Vec F S400x7 .f32) (y : S400x7.Idx) :
    ∃ pc ∈ ([⟨rO, p0⟩] : List (View.Piece (Elt F) S400x7 .f32)), y ∈ pc.1.set :=
  View.cover_of_tiled [⟨rO, p0⟩] S400x7.size (by rfl) y
theorem cover6 (p0 : Vec F S400x10000 .bf16) (y : S400x10000.Idx) :
    ∃ pc ∈ ([⟨rL, p0⟩] : List (View.Piece (Elt F) S400x10000 .bf16)), y ∈ pc.1.set :=
  View.cover_of_tiled [⟨rL, p0⟩] S400x10000.size (by rfl) y

/-! ## The body's triple, case by case -/

set_option maxHeartbeats 1000000 in
/-- At the first point: X's and W1's memrefs at contents x0, x1, the scratch at anything; the body runs to the
    continuation holding those two as they were and the scratch at their product. It touches nothing else. -/
theorem sound_kernel0_A (c : Dev nD) (E : Set ℕ) (i : grid0.Coords) (hc0 : cond0_0 i) (hc1 : ¬cond0_1 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x7 .f32) (harg4 : arg4.IsWhole)
    (arg5 : Memref sig .tc .vmem S400x10000 .f32) (harg5 : arg5.IsWhole) (arg6 : Memref sig .tc .vmem S400x7 .f32) (harg6 : arg6.IsWhole)
    (arg7 : Memref sig .tc .vmem S400x10000 .bf16) (harg7 : arg7.IsWhole) (arg8 : Memref sig .tc .vmem S10000x16 .f32) (harg8 : arg8.IsWhole)
    (x0 : Vec F S10000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (s1of x0 x1)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverS _)

set_option maxHeartbeats 1000000 in
/-- At a later point: the bias row's, W2's and the stripe's memrefs at contents x2, x3, x4, the scratch at xs, the two
    outputs' at anything; the body runs to the continuation holding the four as they were and each output's buffer at
    its one store's payload. -/
theorem sound_kernel0_B (c : Dev nD) (E : Set ℕ) (i : grid0.Coords) (hc0 : ¬cond0_0 i) (hc1 : cond0_1 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x7 .f32) (harg4 : arg4.IsWhole)
    (arg5 : Memref sig .tc .vmem S400x10000 .f32) (harg5 : arg5.IsWhole) (arg6 : Memref sig .tc .vmem S400x7 .f32) (harg6 : arg6.IsWhole)
    (arg7 : Memref sig .tc .vmem S400x10000 .bf16) (harg7 : arg7.IsWhole) (arg8 : Memref sig .tc .vmem S10000x16 .f32) (harg8 : arg8.IsWhole)
    (x2 : Vec F S1x16 .f32) (x3 : Vec F S16x7 .f32) (x4 : Vec F S400x10000 .f32) (xs : Vec F S10000x16 .f32) (K : PUnit → sProp 𝕄) :
    iprop(owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg3 fullShare x2 ∗ owns (c : Thread nD τ) arg4 fullShare x3 ∗ owns (c : Thread nD τ) arg5 fullShare x4
            ∗ owns (c : Thread nD τ) arg6 fullShare (out0_5 x4 xs x2 x3) ∗ owns (c : Thread nD τ) arg7 fullShare (out0_6 x4)
            ∗ owns (c : Thread nD τ) arg8 fullShare xs) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf2; subst hf3; subst hf4; subst hfs
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _)
  iexists fs; isplitr; · ipureintro; rfl
  iexact HS

end Region0

end Cert.Kernel.Hand

end
-- ==== Proof.K.Body0.lean ====
/-
  The first launch's invariant, proof data and body obligation, at any float instance.

  From the second point on the kernel's own scratch buffer holds the first support X·W1, stored at the first point and
  only read afterwards. The invariant records it; the proof data name what every staging buffer holds after the body
  at every point; the body obligation is the body's triple at the first point or at a later one.
-/
import proofs.«129540_g70901320122454_cont_9to1_m_1154_12_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The invariant: what the scratch holds between points -/

/-- The first point. -/
abbrev t0 : Fin cfg0.N := ⟨0, by decide⟩

/-- The first support as the scratch holds it from the second point on: the product of X's and W1's blocks at the
    first point (both windows hold their whole arrays at every point). -/
def S1c (c : Dev nD) : Vec F S10000x16 .f32 := s1of (iblk0 V c 0 t0) (iblk0 V c 1 t0)

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers that are neither this launch's staging buffers nor its scratch (the other launch's staging
    buffers), each at some contents: the body never names them. -/
abbrev rest6 (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg3_1)

/-- What the launch hands the region, with the scratch as a memref owned at some contents. -/
theorem PhiA0_eq (c : Dev nD) :
    (Pipeline.ΦA spec0 c : sProp 𝕄)
      = iprop(iprop((∃ d, owns (c : Thread nD τ) scM fullShare d) ∗ rest6 (F := F) c) ∗ (∃ r, prngReg c r)) := by
  unfold Pipeline.ΦA; rw [scopedRest0_eq]; simp only [scM, owns_whole]; try rfl

/-- The region invariant before position n: before the first point, what the launch hands over (the scratch at
    anything); afterwards the same with the scratch at the first support. -/
def PhiS (c : Dev nD) : ℕ → sProp 𝕄
  | 0 => Pipeline.ΦA spec0 c
  | _ + 1 => iprop(iprop(owns (c : Thread nD τ) scM fullShare (S1c V c) ∗ rest6 (F := F) c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM fullShare (S1c V c) ∗ rest6 (F := F) c) ∗ (∃ r, prngReg c r)) := rfl
theorem PhiS_pos (c : Dev nD) (n : ℕ) (hz : n ≠ 0) :
    PhiS V c n = iprop(iprop(owns (c : Thread nD τ) scM fullShare (S1c V c) ∗ rest6 (F := F) c) ∗ (∃ r, prngReg c r)) := by
  cases n with
  | zero => exact absurd rfl hz
  | succ n => rfl

/-! ## The proof data -/

/-- The launch's proof data on core c: the arrays as the launch finds them; after the body at point t each input's
    buffer at its block, the second-support window's at the rows computed from the stripe's block and the first
    support, the narrowed-stripe window's at the stripe's block narrowed (at the first point, where both are idle
    and not written back, these are placeholders nothing consults); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (S1c V c) (iblk0 V c 2 t) (iblk0 V c 3 t)
    | ⟨6, _⟩ => out0_6 (iblk0 V c 4 t)
  Φ t := PhiS V c t.val
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 4 t) (S1c V c) (iblk0 V c 2 t) (iblk0 V c 3 t) := by dsimp only [dat0]
theorem after0_6 (c : Dev nD) (t : Fin cfg0.N) : (dat0 V c).after 6 t = out0_6 (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The five input windows are live at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks. At the first point the invariant hands the body the
    scratch at anything and takes it back at the first support, and the two idle outputs' buffers go back as they
    came; at a later point the invariant hands the scratch at the first support and takes it back unchanged, and the
    outputs' buffers come back at their stores' payloads. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) from rfl, PhiS_succ, Phi_castSucc V c t]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  rw [show (dat0 V c).leavesExact 4 t = owns (c : Thread nD τ) (st0_4 t) fullShare ((dat0 V c).after 4 t) from by
      unfold Dat.leavesExact; rw [liveAt0_4 t], after0_4]
  by_cases hz : t.val = 0
  · rw [Dat.leavesExact_idle (dat0 V c) 5 t (idleAt0_5 t hz) (noFlush0_5 t hz),
      Dat.leavesExact_idle (dat0 V c) 6 t (idleAt0_6 t hz) (noFlush0_6 t hz)]
    rw [PhiS_zero V c _ hz, PhiA0_eq]
    obtain rfl : t = t0 := Fin.ext hz
    unfold S1c
    iintro ⟨⟨⟨HS, Hr6⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t0) ((hcond0_0 t0).mpr hz) (fun h => (hcond0_1 t0).mp h hz)
      _ _ _ _ _ _ _ _ _ _ _ _ _ _ _ _ (iblk0 V c 0 t0) (iblk0 V c 1 t0) _)
    isplitl [H0]; · iexact H0
    isplitl [H1]; · iexact H1
    isplitl [HS]; · iexact HS
    iintro ⟨H0, H1, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · rw [show (dat0 V c).leavesExact 5 t = owns (c : Thread nD τ) (st0_5 t) fullShare ((dat0 V c).after 5 t) from by
        unfold Dat.leavesExact; rw [liveAt0_5 t hz], after0_5]
    rw [show (dat0 V c).leavesExact 6 t = owns (c : Thread nD τ) (st0_6 t) fullShare ((dat0 V c).after 6 t) from by
        unfold Dat.leavesExact; rw [liveAt0_6 t hz], after0_6]
    rw [PhiS_pos V c _ hz]
    iintro ⟨⟨⟨HS, Hr6⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun h => hz ((hcond0_0 t).mp h)) ((hcond0_1 t).mpr hz)
      _ _ _ _ _ _ _ _ _ _ _ _ _ _ _ _ (iblk0 V c 2 t) (iblk0 V c 3 t) (iblk0 V c 4 t) (S1c V c) _)
    isplitl [H2]; · iexact H2
    isplitl [H3]; · iexact H3
    isplitl [H4]; · iexact H4
    isplitl [H5]; · iexists _; iexact H5
    isplitl [H6]; · iexists _; iexact H6
    isplitl [HS]; · iexact HS
    iintro ⟨H2, H3, H4, H5, H6, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the same back: what the scratch holds is forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 26 := N_0; omega), PhiA0_eq]
  iintro ⟨⟨HS, Hr6⟩, Hg⟩
  isplitl [HS Hr6]
  · isplitl [HS]; · iexists _; iexact HS
    iexact Hr6
  iexact Hg

end Region0

end Cert.Kernel.Hand

end
-- ==== Proof.K.Region1.lean ====
/-
  The second launch, point by point, at any float instance.

  Its grid has 25 points. At point t the body is handed stripe t of the (narrowed) operator, a 400×10000 block,
  the whole 10000×7 second support and the 1×7 bias row, and writes one 400×7 block of the result: the stripe
  times the support plus the bias row broadcast over the 400 rows. Every window is live at every point and the
  result block is written back at every point, so what each staging buffer holds after the body is a function of
  the point's input blocks alone: the inputs' their blocks, the output's the one store's payload.
  Stated at a parameter V, the contents of the core's buffers when the launch is entered.
-/
import proofs.«129540_g70901320122454_cont_9to1_m_1154_12_alg».proof.Proof.Gen.Kernel.Launch
import proofs.«129540_g70901320122454_cont_9to1_m_1154_12_alg».proof.Proof.Gen.Kernel.Skeleton
import proofs.«129540_g70901320122454_cont_9to1_m_1154_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each access is of a whole staging buffer. -/
abbrev rA1 : Rect S400x10000 := Rect.unit (s := S400x10000) ![0, 0] S400x10000.size inb_S400x10000_S400x10000_0_0
abbrev rB1 : Rect S10000x7 := Rect.unit (s := S10000x7) ![0, 0] S10000x7.size inb_S10000x7_S10000x7_0_0
abbrev rC1 : Rect S1x7 := Rect.unit (s := S1x7) ![0, 0] S1x7.size inb_S1x7_S1x7_0_0
abbrev rO1 : Rect S400x7 := Rect.unit (s := S400x7) ![0, 0] S400x7.size inb_S400x7_S400x7_0_0

/-- What the body leaves in the result window's buffer: its one store, of the payload of the three loads. -/
def out1_3 (x0 : Vec F S400x10000 .bf16) (x1 : Vec F S10000x7 .f32) (x2 : Vec F S1x7 .f32) : Vec F S400x7 .f32 :=
  View.canon [⟨rO1, k1_pay1 (View.ld x0 rA1) (View.ld x1 rB1) (View.ld x2 rC1)⟩]

/-- The one store covers the buffer. -/
theorem cover1_3 (p0 : Vec F S400x7 .f32) (y : S400x7.Idx) :
    ∃ pc ∈ ([⟨rO1, p0⟩] : List (View.Piece (Elt F) S400x7 .f32)), y ∈ pc.1.set :=
  View.cover_of_tiled [⟨rO1, p0⟩] S400x7.size (by rfl) y

set_option maxHeartbeats 1000000 in
/-- The body on whole staging memrefs: the inputs' at contents x0, x1, x2 and the output's at anything, it runs to
    the continuation holding the inputs' as they were and the output's at `out1_3` of them. -/
theorem sound_kernel1 (c : Dev nD) (E : Set ℕ) (i : grid1.Coords)
    (arg1 : Memref sig .tc .vmem S400x10000 .bf16) (harg1 : arg1.IsWhole) (arg2 : Memref sig .tc .vmem S10000x7 .f32) (harg2 : arg2.IsWhole)
    (arg3 : Memref sig .tc .vmem S1x7 .f32) (harg3 : arg3.IsWhole) (arg4 : Memref sig .tc .vmem S400x7 .f32) (harg4 : arg4.IsWhole)
    (x0 : Vec F S400x10000 .bf16) (x1 : Vec F S10000x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The launch's proof data on core c: the arrays as the launch finds them; after the body at point t each input's
    buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole run of @main, at any float instance: two reshapes on the host, the first launch, the second launch.

  The contents of the core's unscoped buffers are followed from boundary to boundary: the launch memory; after the two
  host reshapes; after the first launch, whose two output arrays hold what its write-backs leave and whose other
  buffers are untouched; after the second launch, likewise. Each launch is a segment of the regions kit over the
  thread state "every unscoped buffer at the boundary's contents, the generator register at some state, nothing
  owed"; its arrays are split out of the unscoped buffers at entry and put back at exit. Every weakly fair execution
  terminates, and the final memory holds the result array at the last boundary's contents and every argument as
  launched: no host operation writes an argument and each launch only reads it through an input window or bypasses it.
-/
import proofs.«129540_g70901320122454_cont_9to1_m_1154_12_alg».proof.Proof.K.Body0
import proofs.«129540_g70901320122454_cont_9to1_m_1154_12_alg».proof.Proof.K.Region1
import proofs.«129540_g70901320122454_cont_9to1_m_1154_12_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev Wl0 : Dev nD → Valuation τ sig (Elt F) := fun c b => m (c, b)
/-- After the host reshapes (the first launch's entry). -/
abbrev Wl1 : Dev nD → Valuation τ sig (Elt F) := fun c => StableHlo.after hostOps0 (Wl0 m c)
/-- The same read at the TensorCore's references. -/
abbrev Vr1 : (c : Dev nD) → (b : Ref sig .tc) → Buf (Elt F) ((c : Thread nD τ).loc b) := fun c b => Wl1 m c b
/-- At the first launch's exit: its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)

/-- At the second launch's exit: its arrays at what the pipeline leaves, every other buffer as entered. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)

/-! ### The arguments end as launched -/

/-- The host reshapes write only their own two results. -/
theorem Wl1_of (c : Dev nD) (r : Ref sig .tc) (h : r ∉ hostOps0_W) : Wl1 m c (Proc.devRef .tc r) = m ((c : Thread nD τ).loc r) :=
  (Gen.V1_of m c r h).trans rfl

/-- An argument the first launch reads through input window w, which the second launch bypasses. -/
theorem Wl3_in (c : Dev nD) (w : Fin cfg0.W) (hw : (cfg0.win w).isOut = false) (h1 : ∀ w', Pipeline.arrRef spec1 w' ≠ Pipeline.arrRef spec0 w)
    (h0 : Pipeline.arrRef spec0 w ∉ hostOps0_W) :
    Wl3 m c (Proc.devRef .tc (Pipeline.arrRef spec0 w)) = m ((c : Thread nD τ).loc (Pipeline.arrRef spec0 w)) :=
  calc Wl3 m c (Proc.devRef .tc (Pipeline.arrRef spec0 w))
    _ = Wl2 m c (Proc.devRef .tc (Pipeline.arrRef spec0 w)) := Wl3_of_ne m c _ h1
    _ = Wl1 m c (Proc.devRef .tc (Pipeline.arrRef spec0 w)) := (Wl2_arr m c w).trans (((dat0 (Vr1 m) c).arrAt_in w hw _).trans (A_eq0 (Vr1 m) c w))
    _ = m ((c : Thread nD τ).loc (Pipeline.arrRef spec0 w)) := Wl1_of m c _ h0

/-- An argument both launches bypass. -/
theorem Wl3_by (c : Dev nD) (b : Ref sig .tc) (h1 : ∀ w', Pipeline.arrRef spec1 w' ≠ b) (h0 : ∀ w, Pipeline.arrRef spec0 w ≠ b)
    (hh : b ∉ hostOps0_W) : Wl3 m c (Proc.devRef .tc b) = m ((c : Thread nD τ).loc b) :=
  (Wl3_of_ne m c b h1).trans ((Wl2_of_ne m c b h0).trans (Wl1_of m c b hh))

theorem Wl3_main_arg0 (c : Dev nD) : Wl3 m c (Proc.devRef .tc main_arg0) = m ((c : Thread nD τ).loc main_arg0) :=
  Wl3_in m c 4 rfl (by decide) (by decide)
theorem Wl3_main_arg1 (c : Dev nD) : Wl3 m c (Proc.devRef .tc main_arg1) = m ((c : Thread nD τ).loc main_arg1) :=
  Wl3_in m c 0 rfl (by decide) (by decide)
theorem Wl3_main_arg2 (c : Dev nD) : Wl3 m c (Proc.devRef .tc main_arg2) = m ((c : Thread nD τ).loc main_arg2) :=
  Wl3_in m c 1 rfl (by decide) (by decide)
theorem Wl3_main_arg3 (c : Dev nD) : Wl3 m c (Proc.devRef .tc main_arg3) = m ((c : Thread nD τ).loc main_arg3) :=
  Wl3_by m c main_arg3 (by decide) (by decide) (by decide)
theorem Wl3_main_arg4 (c : Dev nD) : Wl3 m c (Proc.devRef .tc main_arg4) = m ((c : Thread nD τ).loc main_arg4) :=
  Wl3_in m c 3 rfl (by decide) (by decide)
theorem Wl3_main_arg5 (c : Dev nD) : Wl3 m c (Proc.devRef .tc main_arg5) = m ((c : Thread nD τ).loc main_arg5) :=
  Wl3_by m c main_arg5 (by decide) (by decide) (by decide)

/-! ## The proof data family and the thread state -/

/-- The prefetched tables' admissible contents: no launch has a table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wl3 m c) ∗ ∃ r, prngReg c r)

/-! ## The launches as segments -/

set_option backward.isDefEq.respectTransparency.types false in
/-- The first launch over the thread state: entered from every unscoped buffer at the contents after the reshapes, left
    at those with its two output arrays replaced. The generator register goes into the invariant and comes back; the
    scratch's contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Wl1 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from the first launch's exit contents, left at those with the
    result array replaced. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (Wl2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's three segments in order. -/
abbrev segs : List (Pipeline.Seg (pcfgs (F := F)) adm (pdats m) () defs₀ 𝒱₀ L lv) :=
  [ .host (hseg hostOps0 hostOps0_sub hostOps0_fresh (Wl0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has the result array at the last boundary's contents and the six arguments as launched. -/
theorem run : θ_run defs (onTc (τ := τ) (main (F := F))) ⟨m, fun _ => 0, ρ⟩ (fun r => ∀ c : Dev nD,
      r.2.mem ((c.tc : Thread nD τ).loc main_v3) = Wl3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h c =>
      ⟨h c _ (mem_uc main_v3 (by decide)),
       (h c _ (mem_uc main_arg0 (by decide))).trans (Wl3_main_arg0 m c),
       (h c _ (mem_uc main_arg1 (by decide))).trans (Wl3_main_arg1 m c),
       (h c _ (mem_uc main_arg2 (by decide))).trans (Wl3_main_arg2 m c),
       (h c _ (mem_uc main_arg3 (by decide))).trans (Wl3_main_arg3 m c),
       (h c _ (mem_uc main_arg4 (by decide))).trans (Wl3_main_arg4 m c),
       (h c _ (mem_uc main_arg5 (by decide))).trans (Wl3_main_arg5 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Hand

end
-- ==== Proof.KI.Region0.lean ====
/-
  The first launch, point by point, at any float instance.

  Its grid has 26 points. The body is handed the whole feature matrix X, the weights W1 and W2, the bias row b1, and
  one 400-row stripe of the operator L — stripe max(t - 1, 0) at point t — and writes two outputs through the same
  stripe index: 400 rows of the second support, and the stripe of L narrowed to bf16. Beside the windows it keeps a
  scratch buffer of its own, 10000×16, across the points.
    point 0        : the scratch is filled with X·W1 (the first support); nothing is stored into the outputs,
                     and their blocks are not written back there (the next point has the same stripe index);
    points 1 … 25  : the scratch is read, never stored into; both output blocks are stored whole:
                     rows of relu(stripe · scratch + b1) · W2, and the narrowed stripe.
  So from point 1 on the scratch holds one fixed array, a function of X's and W1's blocks at point 0, and what
  the outputs' buffers hold after point t ≥ 1 is a function of the point's input blocks and that array. The region's
  invariant says exactly this: before the first point the scratch holds anything; afterwards, the first support.
  Stated at a parameter V, the contents of the core's buffers when the launch is entered.
-/
import proofs.«129540_g70901320122454_cont_9to1_m_1154_12_alg».proof.Proof.Gen.KernelIdeal.Launch
import proofs.«129540_g70901320122454_cont_9to1_m_1154_12_alg».proof.Proof.Gen.KernelIdeal.Skeleton
import proofs.«129540_g70901320122454_cont_9to1_m_1154_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the stripe window
    is not fetched at point 1, where its index has not moved; the four whole-array windows only at point 0). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first point": the body's first conditional. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is a later point": the body's second conditional. -/
abbrev cond0_1 (i : grid0.Coords) : Prop := k0_cond2 i = 1#1
theorem hcond0_1 : ∀ t : Fin cfg0.N, cond0_1 (grid0.coords t) ↔ t.val ≠ 0 :=
  (by decide +kernel : ∀ t : Fin grid0.N, cond0_1 (grid0.coords t) ↔ t.val ≠ 0)

/-- The two output windows are idle at the first point and not written back there; live at every later point. -/
theorem idleAt0_5 : ∀ t : Fin cfg0.N, t.val = 0 → cfg0.idle 5 (grid0.coords t) = true := by decide +kernel
theorem noFlush0_5 : ∀ t : Fin cfg0.N, t.val = 0 → (cfg0.win 5).flush t = false := by decide +kernel
theorem liveAt0_5 : ∀ t : Fin cfg0.N, t.val ≠ 0 → cfg0.idle 5 (grid0.coords t) = false := by decide +kernel
theorem idleAt0_6 : ∀ t : Fin cfg0.N, t.val = 0 → cfg0.idle 6 (grid0.coords t) = true := by decide +kernel
theorem noFlush0_6 : ∀ t : Fin cfg0.N, t.val = 0 → (cfg0.win 6).flush t = false := by decide +kernel
theorem liveAt0_6 : ∀ t : Fin cfg0.N, t.val ≠ 0 → cfg0.idle 6 (grid0.coords t) = false := by decide +kernel

/-! ## The body's accesses and what its stores leave -/

abbrev rX : Rect S10000x128 := Rect.unit (s := S10000x128) ![0, 0] S10000x128.size inb_S10000x128_S10000x128_0_0
abbrev rW1 : Rect S128x16 := Rect.unit (s := S128x16) ![0, 0] S128x16.size inb_S128x16_S128x16_0_0
abbrev rBias : Rect S1x16 := Rect.unit (s := S1x16) ![0, 0] S1x16.size inb_S1x16_S1x16_0_0
abbrev rW2 : Rect S16x7 := Rect.unit (s := S16x7) ![0, 0] S16x7.size inb_S16x7_S16x7_0_0
abbrev rL : Rect S400x10000 := Rect.unit (s := S400x10000) ![0, 0] S400x10000.size inb_S400x10000_S400x10000_0_0
abbrev rO : Rect S400x7 := Rect.unit (s := S400x7) ![0, 0] S400x7.size inb_S400x7_S400x7_0_0
abbrev rS : Rect S10000x16 := Rect.unit (s := S10000x16) ![0, 0] S10000x16.size inb_S10000x16_S10000x16_0_0

/-- The scratch operand: a whole scoped buffer of the kernel's own, passed beside the windows. -/
abbrev scM : Memref sig .tc .vmem S10000x16 .f32 := Memref.whole cc0_scratch0

/-- What the first point's store leaves in the scratch: the product of X's and W1's buffers. -/
def s1of (x0 : Vec F S10000x128 .f32) (x1 : Vec F S128x16 .f32) : Vec F S10000x16 .f32 :=
  View.canon [⟨rS, k0_pay1 (View.ld x0 rX) (View.ld x1 rW1)⟩]
/-- What a later point's stores leave in the second-support window's buffer, -/
def out0_5 (x4 : Vec F S400x10000 .f32) (xs : Vec F S10000x16 .f32) (x2 : Vec F S1x16 .f32) (x3 : Vec F S16x7 .f32) : Vec F S400x7 .f32 :=
  View.canon [⟨rO, k0_pay3 (View.ld x4 rL) (View.ld xs rS) (View.ld x2 rBias) (View.ld x3 rW2)⟩]
/-- and in the narrowed-stripe window's. -/
def out0_6 (x4 : Vec F S400x10000 .f32) : Vec F S400x10000 .bf16 :=
  View.canon [⟨rL, k0_pay2 (View.ld x4 rL)⟩]

theorem coverS (p0 : Vec F S10000x16 .f32) (y : S10000x16.Idx) :
    ∃ pc ∈ ([⟨rS, p0⟩] : List (View.Piece (Elt F) S10000x16 .f32)), y ∈ pc.1.set :=
  View.cover_of_tiled [⟨rS, p0⟩] S10000x16.size (by rfl) y
theorem cover5 (p0 : Vec F S400x7 .f32) (y : S400x7.Idx) :
    ∃ pc ∈ ([⟨rO, p0⟩] : List (View.Piece (Elt F) S400x7 .f32)), y ∈ pc.1.set :=
  View.cover_of_tiled [⟨rO, p0⟩] S400x7.size (by rfl) y
theorem cover6 (p0 : Vec F S400x10000 .bf16) (y : S400x10000.Idx) :
    ∃ pc ∈ ([⟨rL, p0⟩] : List (View.Piece (Elt F) S400x10000 .bf16)), y ∈ pc.1.set :=
  View.cover_of_tiled [⟨rL, p0⟩] S400x10000.size (by rfl) y

/-! ## The body's triple, case by case -/

set_option maxHeartbeats 1000000 in
/-- At the first point: X's and W1's memrefs at contents x0, x1, the scratch at anything; the body runs to the
    continuation holding those two as they were and the scratch at their product. It touches nothing else. -/
theorem sound_kernel0_A (c : Dev nD) (E : Set ℕ) (i : grid0.Coords) (hc0 : cond0_0 i) (hc1 : ¬cond0_1 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x7 .f32) (harg4 : arg4.IsWhole)
    (arg5 : Memref sig .tc .vmem S400x10000 .f32) (harg5 : arg5.IsWhole) (arg6 : Memref sig .tc .vmem S400x7 .f32) (harg6 : arg6.IsWhole)
    (arg7 : Memref sig .tc .vmem S400x10000 .bf16) (harg7 : arg7.IsWhole) (arg8 : Memref sig .tc .vmem S10000x16 .f32) (harg8 : arg8.IsWhole)
    (x0 : Vec F S10000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (s1of x0 x1)) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverS _)

set_option maxHeartbeats 1000000 in
/-- At a later point: the bias row's, W2's and the stripe's memrefs at contents x2, x3, x4, the scratch at xs, the two
    outputs' at anything; the body runs to the continuation holding the four as they were and each output's buffer at
    its one store's payload. -/
theorem sound_kernel0_B (c : Dev nD) (E : Set ℕ) (i : grid0.Coords) (hc0 : ¬cond0_0 i) (hc1 : cond0_1 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x7 .f32) (harg4 : arg4.IsWhole)
    (arg5 : Memref sig .tc .vmem S400x10000 .f32) (harg5 : arg5.IsWhole) (arg6 : Memref sig .tc .vmem S400x7 .f32) (harg6 : arg6.IsWhole)
    (arg7 : Memref sig .tc .vmem S400x10000 .bf16) (harg7 : arg7.IsWhole) (arg8 : Memref sig .tc .vmem S10000x16 .f32) (harg8 : arg8.IsWhole)
    (x2 : Vec F S1x16 .f32) (x3 : Vec F S16x7 .f32) (x4 : Vec F S400x10000 .f32) (xs : Vec F S10000x16 .f32) (K : PUnit → sProp 𝕄) :
    iprop(owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg3 fullShare x2 ∗ owns (c : Thread nD τ) arg4 fullShare x3 ∗ owns (c : Thread nD τ) arg5 fullShare x4
            ∗ owns (c : Thread nD τ) arg6 fullShare (out0_5 x4 xs x2 x3) ∗ owns (c : Thread nD τ) arg7 fullShare (out0_6 x4)
            ∗ owns (c : Thread nD τ) arg8 fullShare xs) -∗ K ⟨⟩))
      ⊢ wp frame (wpE (defs₀ (F := F)) Variants.none c none) E
          (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f2, %hf2, H2⟩, ⟨%f3, %hf3, H3⟩, ⟨%f4, %hf4, H4⟩, ⟨%d5, %f5, -, H5⟩, ⟨%d6, %f6, -, H6⟩, ⟨%fs, %hfs, HS⟩, Hk⟩
  subst hf2; subst hf3; subst hf4; subst hfs
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  isplitl [H6]
  · iexists _; isplitr
    swap; · iexact H6
    ipureintro
    exact View.read_writes_eq_canon _ _ _ (cover6 _)
  iexists fs; isplitr; · ipureintro; rfl
  iexact HS

end Region0

end Cert.KernelIdeal.Hand

end
-- ==== Proof.KI.Body0.lean ====
/-
  The first launch's invariant, proof data and body obligation, at any float instance.

  From the second point on the kernel's own scratch buffer holds the first support X·W1, stored at the first point and
  only read afterwards. The invariant records it; the proof data name what every staging buffer holds after the body
  at every point; the body obligation is the body's triple at the first point or at a later one.
-/
import proofs.«129540_g70901320122454_cont_9to1_m_1154_12_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The invariant: what the scratch holds between points -/

/-- The first point. -/
abbrev t0 : Fin cfg0.N := ⟨0, by decide⟩

/-- The first support as the scratch holds it from the second point on: the product of X's and W1's blocks at the
    first point (both windows hold their whole arrays at every point). -/
def S1c (c : Dev nD) : Vec F S10000x16 .f32 := s1of (iblk0 V c 0 t0) (iblk0 V c 1 t0)

/-- A scoped buffer whole at some contents. -/
abbrev anyBuf (c : Dev nD) (b : Ref sig .tc) : sProp 𝕄 :=
  iprop(∃ f : Buf (Elt F) ((c : Thread nD τ).loc b), ((c : Thread nD τ).loc b) ↦{fullShare} f)

/-- The scoped buffers that are neither this launch's staging buffers nor its scratch (the other launch's staging
    buffers), each at some contents: the body never names them. -/
abbrev rest6 (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg3_1)

/-- What the launch hands the region, with the scratch as a memref owned at some contents. -/
theorem PhiA0_eq (c : Dev nD) :
    (Pipeline.ΦA spec0 c : sProp 𝕄)
      = iprop(iprop((∃ d, owns (c : Thread nD τ) scM fullShare d) ∗ rest6 (F := F) c) ∗ (∃ r, prngReg c r)) := by
  unfold Pipeline.ΦA; rw [scopedRest0_eq]; simp only [scM, owns_whole]; try rfl

/-- The region invariant before position n: before the first point, what the launch hands over (the scratch at
    anything); afterwards the same with the scratch at the first support. -/
def PhiS (c : Dev nD) : ℕ → sProp 𝕄
  | 0 => Pipeline.ΦA spec0 c
  | _ + 1 => iprop(iprop(owns (c : Thread nD τ) scM fullShare (S1c V c) ∗ rest6 (F := F) c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM fullShare (S1c V c) ∗ rest6 (F := F) c) ∗ (∃ r, prngReg c r)) := rfl
theorem PhiS_pos (c : Dev nD) (n : ℕ) (hz : n ≠ 0) :
    PhiS V c n = iprop(iprop(owns (c : Thread nD τ) scM fullShare (S1c V c) ∗ rest6 (F := F) c) ∗ (∃ r, prngReg c r)) := by
  cases n with
  | zero => exact absurd rfl hz
  | succ n => rfl

/-! ## The proof data -/

/-- The launch's proof data on core c: the arrays as the launch finds them; after the body at point t each input's
    buffer at its block, the second-support window's at the rows computed from the stripe's block and the first
    support, the narrowed-stripe window's at the stripe's block narrowed (at the first point, where both are idle
    and not written back, these are placeholders nothing consults); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (S1c V c) (iblk0 V c 2 t) (iblk0 V c 3 t)
    | ⟨6, _⟩ => out0_6 (iblk0 V c 4 t)
  Φ t := PhiS V c t.val
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 4 t) (S1c V c) (iblk0 V c 2 t) (iblk0 V c 3 t) := by dsimp only [dat0]
theorem after0_6 (c : Dev nD) (t : Fin cfg0.N) : (dat0 V c).after 6 t = out0_6 (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The five input windows are live at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks. At the first point the invariant hands the body the
    scratch at anything and takes it back at the first support, and the two idle outputs' buffers go back as they
    came; at a later point the invariant hands the scratch at the first support and takes it back unchanged, and the
    outputs' buffers come back at their stores' payloads. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) from rfl, PhiS_succ, Phi_castSucc V c t]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  rw [show (dat0 V c).leavesExact 3 t = owns (c : Thread nD τ) (st0_3 t) fullShare ((dat0 V c).after 3 t) from by
      unfold Dat.leavesExact; rw [liveAt0_3 t], after0_3]
  rw [show (dat0 V c).leavesExact 4 t = owns (c : Thread nD τ) (st0_4 t) fullShare ((dat0 V c).after 4 t) from by
      unfold Dat.leavesExact; rw [liveAt0_4 t], after0_4]
  by_cases hz : t.val = 0
  · rw [Dat.leavesExact_idle (dat0 V c) 5 t (idleAt0_5 t hz) (noFlush0_5 t hz),
      Dat.leavesExact_idle (dat0 V c) 6 t (idleAt0_6 t hz) (noFlush0_6 t hz)]
    rw [PhiS_zero V c _ hz, PhiA0_eq]
    obtain rfl : t = t0 := Fin.ext hz
    unfold S1c
    iintro ⟨⟨⟨HS, Hr6⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t0) ((hcond0_0 t0).mpr hz) (fun h => (hcond0_1 t0).mp h hz)
      _ _ _ _ _ _ _ _ _ _ _ _ _ _ _ _ (iblk0 V c 0 t0) (iblk0 V c 1 t0) _)
    isplitl [H0]; · iexact H0
    isplitl [H1]; · iexact H1
    isplitl [HS]; · iexact HS
    iintro ⟨H0, H1, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · rw [show (dat0 V c).leavesExact 5 t = owns (c : Thread nD τ) (st0_5 t) fullShare ((dat0 V c).after 5 t) from by
        unfold Dat.leavesExact; rw [liveAt0_5 t hz], after0_5]
    rw [show (dat0 V c).leavesExact 6 t = owns (c : Thread nD τ) (st0_6 t) fullShare ((dat0 V c).after 6 t) from by
        unfold Dat.leavesExact; rw [liveAt0_6 t hz], after0_6]
    rw [PhiS_pos V c _ hz]
    iintro ⟨⟨⟨HS, Hr6⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun h => hz ((hcond0_0 t).mp h)) ((hcond0_1 t).mpr hz)
      _ _ _ _ _ _ _ _ _ _ _ _ _ _ _ _ (iblk0 V c 2 t) (iblk0 V c 3 t) (iblk0 V c 4 t) (S1c V c) _)
    isplitl [H2]; · iexact H2
    isplitl [H3]; · iexact H3
    isplitl [H4]; · iexact H4
    isplitl [H5]; · iexists _; iexact H5
    isplitl [H6]; · iexists _; iexact H6
    isplitl [HS]; · iexact HS
    iintro ⟨H2, H3, H4, H5, H6, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the same back: what the scratch holds is forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 26 := N_0; omega), PhiA0_eq]
  iintro ⟨⟨HS, Hr6⟩, Hg⟩
  isplitl [HS Hr6]
  · isplitl [HS]; · iexists _; iexact HS
    iexact Hr6
  iexact Hg

end Region0

end Cert.KernelIdeal.Hand

end
-- ==== Proof.KI.Region1.lean ====
/-
  The second launch, point by point, at any float instance.

  Its grid has 25 points. At point t the body is handed stripe t of the (narrowed) operator, a 400×10000 block,
  the whole 10000×7 second support and the 1×7 bias row, and writes one 400×7 block of the result: the stripe
  times the support plus the bias row broadcast over the 400 rows. Every window is live at every point and the
  result block is written back at every point, so what each staging buffer holds after the body is a function of
  the point's input blocks alone: the inputs' their blocks, the output's the one store's payload.
  Stated at a parameter V, the contents of the core's buffers when the launch is entered.
-/
import proofs.«129540_g70901320122454_cont_9to1_m_1154_12_alg».proof.Proof.Gen.KernelIdeal.Launch
import proofs.«129540_g70901320122454_cont_9to1_m_1154_12_alg».proof.Proof.Gen.KernelIdeal.Skeleton
import proofs.«129540_g70901320122454_cont_9to1_m_1154_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: each access is of a whole staging buffer. -/
abbrev rA1 : Rect S400x10000 := Rect.unit (s := S400x10000) ![0, 0] S400x10000.size inb_S400x10000_S400x10000_0_0
abbrev rB1 : Rect S10000x7 := Rect.unit (s := S10000x7) ![0, 0] S10000x7.size inb_S10000x7_S10000x7_0_0
abbrev rC1 : Rect S1x7 := Rect.unit (s := S1x7) ![0, 0] S1x7.size inb_S1x7_S1x7_0_0
abbrev rO1 : Rect S400x7 := Rect.unit (s := S400x7) ![0, 0] S400x7.size inb_S400x7_S400x7_0_0

/-- What the body leaves in the result window's buffer: its one store, of the payload of the three loads. -/
def out1_3 (x0 : Vec F S400x10000 .bf16) (x1 : Vec F S10000x7 .f32) (x2 : Vec F S1x7 .f32) : Vec F S400x7 .f32 :=
  View.canon [⟨rO1, k1_pay1 (View.ld x0 rA1) (View.ld x1 rB1) (View.ld x2 rC1)⟩]

/-- The one store covers the buffer. -/
theorem cover1_3 (p0 : Vec F S400x7 .f32) (y : S400x7.Idx) :
    ∃ pc ∈ ([⟨rO1, p0⟩] : List (View.Piece (Elt F) S400x7 .f32)), y ∈ pc.1.set :=
  View.cover_of_tiled [⟨rO1, p0⟩] S400x7.size (by rfl) y

set_option maxHeartbeats 1000000 in
/-- The body on whole staging memrefs: the inputs' at contents x0, x1, x2 and the output's at anything, it runs to
    the continuation holding the inputs' as they were and the output's at `out1_3` of them. -/
theorem sound_kernel1 (c : Dev nD) (E : Set ℕ) (i : grid1.Coords)
    (arg1 : Memref sig .tc .vmem S400x10000 .bf16) (harg1 : arg1.IsWhole) (arg2 : Memref sig .tc .vmem S10000x7 .f32) (harg2 : arg2.IsWhole)
    (arg3 : Memref sig .tc .vmem S1x7 .f32) (harg3 : arg3.IsWhole) (arg4 : Memref sig .tc .vmem S400x7 .f32) (harg4 : arg4.IsWhole)
    (x0 : Vec F S400x10000 .bf16) (x1 : Vec F S10000x7 .f32) (x2 : Vec F S1x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The launch's proof data on core c: the arrays as the launch finds them; after the body at point t each input's
    buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole run of @main, at any float instance: two reshapes on the host, the first launch, the second launch.

  The contents of the core's unscoped buffers are followed from boundary to boundary: the launch memory; after the two
  host reshapes; after the first launch, whose two output arrays hold what its write-backs leave and whose other
  buffers are untouched; after the second launch, likewise. Each launch is a segment of the regions kit over the
  thread state "every unscoped buffer at the boundary's contents, the generator register at some state, nothing
  owed"; its arrays are split out of the unscoped buffers at entry and put back at exit. Every weakly fair execution
  terminates, and the final memory holds the result array at the last boundary's contents and every argument as
  launched: no host operation writes an argument and each launch only reads it through an input window or bypasses it.
-/
import proofs.«129540_g70901320122454_cont_9to1_m_1154_12_alg».proof.Proof.KI.Body0
import proofs.«129540_g70901320122454_cont_9to1_m_1154_12_alg».proof.Proof.KI.Region1
import proofs.«129540_g70901320122454_cont_9to1_m_1154_12_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev Wl0 : Dev nD → Valuation τ sig (Elt F) := fun c b => m (c, b)
/-- After the host reshapes (the first launch's entry). -/
abbrev Wl1 : Dev nD → Valuation τ sig (Elt F) := fun c => StableHlo.after hostOps0 (Wl0 m c)
/-- The same read at the TensorCore's references. -/
abbrev Vr1 : (c : Dev nD) → (b : Ref sig .tc) → Buf (Elt F) ((c : Thread nD τ).loc b) := fun c b => Wl1 m c b
/-- At the first launch's exit: its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)

/-- At the second launch's exit: its arrays at what the pipeline leaves, every other buffer as entered. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)

/-! ### The arguments end as launched -/

/-- The host reshapes write only their own two results. -/
theorem Wl1_of (c : Dev nD) (r : Ref sig .tc) (h : r ∉ hostOps0_W) : Wl1 m c (Proc.devRef .tc r) = m ((c : Thread nD τ).loc r) :=
  (Gen.V1_of m c r h).trans rfl

/-- An argument the first launch reads through input window w, which the second launch bypasses. -/
theorem Wl3_in (c : Dev nD) (w : Fin cfg0.W) (hw : (cfg0.win w).isOut = false) (h1 : ∀ w', Pipeline.arrRef spec1 w' ≠ Pipeline.arrRef spec0 w)
    (h0 : Pipeline.arrRef spec0 w ∉ hostOps0_W) :
    Wl3 m c (Proc.devRef .tc (Pipeline.arrRef spec0 w)) = m ((c : Thread nD τ).loc (Pipeline.arrRef spec0 w)) :=
  calc Wl3 m c (Proc.devRef .tc (Pipeline.arrRef spec0 w))
    _ = Wl2 m c (Proc.devRef .tc (Pipeline.arrRef spec0 w)) := Wl3_of_ne m c _ h1
    _ = Wl1 m c (Proc.devRef .tc (Pipeline.arrRef spec0 w)) := (Wl2_arr m c w).trans (((dat0 (Vr1 m) c).arrAt_in w hw _).trans (A_eq0 (Vr1 m) c w))
    _ = m ((c : Thread nD τ).loc (Pipeline.arrRef spec0 w)) := Wl1_of m c _ h0

/-- An argument both launches bypass. -/
theorem Wl3_by (c : Dev nD) (b : Ref sig .tc) (h1 : ∀ w', Pipeline.arrRef spec1 w' ≠ b) (h0 : ∀ w, Pipeline.arrRef spec0 w ≠ b)
    (hh : b ∉ hostOps0_W) : Wl3 m c (Proc.devRef .tc b) = m ((c : Thread nD τ).loc b) :=
  (Wl3_of_ne m c b h1).trans ((Wl2_of_ne m c b h0).trans (Wl1_of m c b hh))

theorem Wl3_main_arg0 (c : Dev nD) : Wl3 m c (Proc.devRef .tc main_arg0) = m ((c : Thread nD τ).loc main_arg0) :=
  Wl3_in m c 4 rfl (by decide) (by decide)
theorem Wl3_main_arg1 (c : Dev nD) : Wl3 m c (Proc.devRef .tc main_arg1) = m ((c : Thread nD τ).loc main_arg1) :=
  Wl3_in m c 0 rfl (by decide) (by decide)
theorem Wl3_main_arg2 (c : Dev nD) : Wl3 m c (Proc.devRef .tc main_arg2) = m ((c : Thread nD τ).loc main_arg2) :=
  Wl3_in m c 1 rfl (by decide) (by decide)
theorem Wl3_main_arg3 (c : Dev nD) : Wl3 m c (Proc.devRef .tc main_arg3) = m ((c : Thread nD τ).loc main_arg3) :=
  Wl3_by m c main_arg3 (by decide) (by decide) (by decide)
theorem Wl3_main_arg4 (c : Dev nD) : Wl3 m c (Proc.devRef .tc main_arg4) = m ((c : Thread nD τ).loc main_arg4) :=
  Wl3_in m c 3 rfl (by decide) (by decide)
theorem Wl3_main_arg5 (c : Dev nD) : Wl3 m c (Proc.devRef .tc main_arg5) = m ((c : Thread nD τ).loc main_arg5) :=
  Wl3_by m c main_arg5 (by decide) (by decide) (by decide)

/-! ## The proof data family and the thread state -/

/-- The prefetched tables' admissible contents: no launch has a table. -/
abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wl3 m c) ∗ ∃ r, prngReg c r)

/-! ## The launches as segments -/

set_option backward.isDefEq.respectTransparency.types false in
/-- The first launch over the thread state: entered from every unscoped buffer at the contents after the reshapes, left
    at those with its two output arrays replaced. The generator register goes into the invariant and comes back; the
    scratch's contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (Wl1 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from the first launch's exit contents, left at those with the
    result array replaced. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (Wl2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's three segments in order. -/
abbrev segs : List (Pipeline.Seg (pcfgs (F := F)) adm (pdats m) () defs₀ 𝒱₀ L lv) :=
  [ .host (hseg hostOps0 hostOps0_sub hostOps0_fresh (Wl0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    final state has the result array at the last boundary's contents and the six arguments as launched. -/
theorem run : θ_run defs (onTc (τ := τ) (main (F := F))) ⟨m, fun _ => 0, ρ⟩ (fun r => ∀ c : Dev nD,
      r.2.mem ((c.tc : Thread nD τ).loc main_v3) = Wl3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h c =>
      ⟨h c _ (mem_uc main_v3 (by decide)),
       (h c _ (mem_uc main_arg0 (by decide))).trans (Wl3_main_arg0 m c),
       (h c _ (mem_uc main_arg1 (by decide))).trans (Wl3_main_arg1 m c),
       (h c _ (mem_uc main_arg2 (by decide))).trans (Wl3_main_arg2 m c),
       (h c _ (mem_uc main_arg3 (by decide))).trans (Wl3_main_arg3 m c),
       (h c _ (mem_uc main_arg4 (by decide))).trans (Wl3_main_arg4 m c),
       (h c _ (mem_uc main_arg5 (by decide))).trans (Wl3_main_arg5 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Hand

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Spec.lean ====
/-
  The function both programs compute, index by index, on the extended reals.

  With L the 10000×10000 operator, X the 10000×128 features, W1 (128×16), b1 (16), W2 (16×7), b2 (7):
    support  S1[l, h] = Σ_p X[l, p] · W1[p, h]
    hidden    H[k, h] = max (Σ_l L[k, l] · S1[l, h] + b1[h], 0)
    support  S2[k, j] = Σ_h H[k, h] · W2[h, j]
    logits    G[r, j] = Σ_k L[r, k] · S2[k, j] + b2[j]
  The sum, the product, the addition and the maximum are the exact ones of the ideal float instance; the zero is
  the value of the all-zero f32 word there. No law of arithmetic is used anywhere: the two programs evaluate this
  same expression, one whole and one by stripes of 400 rows.
-/
import Idealize.ShloMosaic.Lib.ValueIdx
import Idealize.ShloMosaic.PureOps.Ideal

noncomputable section

open scoped BigOperators

namespace Cert.Gcn

open Idealize.ShloMosaic Idealize.ShloMosaic.ValueIdx

/-- An a×b matrix of extended reals, indexed as the programs index a rank-2 array. -/
abbrev Mat (a b : ℕ) : Type := (⟨2, ![a, b]⟩ : Shape).Idx → EReal
/-- A length-n vector of extended reals, indexed as the programs index a rank-1 array. -/
abbrev Vect (n : ℕ) : Type := (⟨1, ![n]⟩ : Shape).Idx → EReal

/-- The zero both programs clamp at: the value of the all-zero f32 word. -/
def zero : EReal := FloatOps.ofBits (F := Ideal) .f32 0x00000000#32

/-- First support: the features times the first weight matrix. -/
def S1 (X : Mat 10000 128) (W1 : Mat 128 16) (l : Fin 10000) (h : Fin 16) : EReal :=
  ∑ p : Fin 128, X (ix2 l p) * W1 (ix2 p h)

/-- Hidden layer: the operator applied to the first support, plus the bias, clamped below at zero. -/
def H (L : Mat 10000 10000) (X : Mat 10000 128) (W1 : Mat 128 16) (b1 : Vect 16) (k : Fin 10000) (h : Fin 16) : EReal :=
  FloatOps.maximumf (F := Ideal) (φ := .f32)
    (FloatOps.addf (F := Ideal) (φ := .f32) (∑ l : Fin 10000, L (ix2 k l) * S1 X W1 l h) (b1 (ix1 h))) zero

/-- Second support: the hidden layer times the second weight matrix. -/
def S2 (L : Mat 10000 10000) (X : Mat 10000 128) (W1 : Mat 128 16) (b1 : Vect 16) (W2 : Mat 16 7)
    (k : Fin 10000) (j : Fin 7) : EReal :=
  ∑ h : Fin 16, H L X W1 b1 k h * W2 (ix2 h j)

/-- The logits at row r, column j. -/
def logit (L : Mat 10000 10000) (X : Mat 10000 128) (W1 : Mat 128 16) (b1 : Vect 16) (W2 : Mat 16 7) (b2 : Vect 7)
    (r : Fin 10000) (j : Fin 7) : EReal :=
  FloatOps.addf (F := Ideal) (φ := .f32) (∑ k : Fin 10000, L (ix2 r k) * S2 L X W1 b1 W2 k j) (b2 (ix1 j))

/-- The result array: the logits laid out as a 10000×7 array. -/
def G (L : Mat 10000 10000) (X : Mat 10000 128) (W1 : Mat 128 16) (b1 : Vect 16) (W2 : Mat 16 7) (b2 : Vect 7) :
    Mat 10000 7 :=
  fun i => logit L X W1 b1 W2 b2 (i 0) (i 1)

theorem G_apply (L : Mat 10000 10000) (X : Mat 10000 128) (W1 : Mat 128 16) (b1 : Vect 16) (W2 : Mat 16 7) (b2 : Vect 7)
    (r : Fin 10000) (j : Fin 7) : G L X W1 b1 W2 b2 (ix2 r j) = logit L X W1 b1 W2 b2 r j := rfl

end Cert.Gcn

end
-- ==== Proof.KI.Val0.lean ====
/-
  What the first launch leaves in its two output arrays, at the ideal float instance, as whole-array functions of the
  contents the launch is entered with.

  At a point t ≥ 1 the body holds stripe t - 1 of the operator, rows 400·(t-1) … 400·(t-1) + 399, and stores
    rows of the second support:  out[p, q] = Σ_h max (Σ_l stripe[p, l] · S1[l, h] + b1[0, h], 0) · W2[h, q]
    the narrowed stripe:         lbf[p, l] = stripe[p, l]      (a change of float format is the identity here)
  where S1 = X·W1 is what the scratch has held since the first point. Both blocks are written back at every point
  t ≥ 1, at block row t - 1, and 25 blocks of 400 rows tile the 10000 rows; so the second-support array ends holding
  S2[r, q] for every r, and the narrowed operator is the operator.
-/
import proofs.«129540_g70901320122454_cont_9to1_m_1154_12_alg».proof.Proof.KI.Body0
import proofs.«129540_g70901320122454_cont_9to1_m_1154_12_alg».proof.Proof.LibPlainDot
import proofs.«129540_g70901320122454_cont_9to1_m_1154_12_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val0

open Idealize.ShloMosaic Idealize.ShloMosaic.TcCoe Idealize.SL.Sem
open Idealize.ShloMosaic.ValueIdx (ix1 ix2 eq_ix2 broadcastTo_1b_ab_apply)
open Idealize.ShloMosaic.Pipeline (Dat)
open Cert.KernelIdeal Cert.KernelIdeal.Gen Cert.KernelIdeal.Hand

theorem hz : (![0, 0] : Fin 2 → Nat) = fun _ => 0 := funext fun a => by fin_cases a <;> rfl

/-! ## The three payloads at an index -/

/-- The first support: entry (l, h) of the product of the two loaded arrays. -/
theorem s1of_apply (x0 : FVec Ideal S10000x128 .f32) (x1 : FVec Ideal S128x16 .f32) (l : Fin 10000) (h : Fin 16) :
    s1of (F := Ideal) x0 x1 (ix2 l h) = ∑ p : Fin 128, x0 (ix2 l p) * x1 (ix2 p h) := by
  unfold s1of
  rw [View.canon_unit_zero hz]
  simp only [View.ld_unit_zero (S := S10000x128) hz, View.ld_unit_zero (S := S128x16) hz]
  unfold k0_pay1
  rw [shapeCast_self]
  exact Cert.LibPlainDot.matmul_zero_apply (M := 10000) (K := 128) (N := 16) none x0 x1 l h

/-- The narrowed stripe is the stripe. -/
theorem out0_6_apply (x4 : FVec Ideal S400x10000 .f32) (y : S400x10000.Idx) : out0_6 (F := Ideal) x4 y = x4 y := by
  unfold out0_6
  rw [View.canon_unit_zero hz]
  simp only [View.ld_unit_zero (S := S400x10000) hz]
  rfl

/-- Rows of the second support: entry (p, q) from the stripe, the first support, the bias row and W2. -/
theorem out0_5_apply (x4 : FVec Ideal S400x10000 .f32) (xs : FVec Ideal S10000x16 .f32) (x2 : FVec Ideal S1x16 .f32)
    (x3 : FVec Ideal S16x7 .f32) (p : Fin 400) (q : Fin 7) :
    out0_5 (F := Ideal) x4 xs x2 x3 (ix2 p q)
      = ∑ h : Fin 16, max ((∑ l : Fin 10000, x4 (ix2 p l) * xs (ix2 l h)) + x2 (ix2 (0 : Fin 1) h)) Cert.Gcn.zero * x3 (ix2 h q) := by
  unfold out0_5
  rw [View.canon_unit_zero hz]
  simp only [View.ld_unit_zero (S := S400x10000) hz, View.ld_unit_zero (S := S10000x16) hz, View.ld_unit_zero (S := S1x16) hz,
    View.ld_unit_zero (S := S16x7) hz]
  unfold k0_pay3
  refine (Cert.LibPlainDot.matmul_zero_apply (M := 400) (K := 16) (N := 7) none _ x3 p q).trans ?_
  refine Finset.sum_congr rfl fun h _ => ?_
  refine congrArg (· * x3 (ix2 h q)) ?_
  show max ((matmul dot_S400x10000_S10000x16_S400x16_1_0_0_1_n_n none x4 xs (constant S400x16 .f32 0x00000000#32)) (ix2 p h)
      + (broadcastTo S400x16 (shapeCast S1x16 x2 shapeCasts_S1x16_S1x16) broadcasts_S1x16_S400x16) (ix2 p h)) _ = _
  rw [shapeCast_self]
  refine congrArg₂ max (congrArg₂ (· + ·) ?_ ?_) rfl
  · exact Cert.LibPlainDot.matmul_zero_apply (M := 400) (K := 10000) (N := 16) none x4 xs p h
  · exact broadcastTo_1b_ab_apply x2 broadcasts_S1x16_S400x16 p h

/-- The same sum when each loaded block is a part of a whole array: the stripe's row p is row r of L, the scratch holds
    S, the bias row and W2 are as given. -/
theorem row_sum (x4 : S400x10000.Idx → EReal) (xs : S10000x16.Idx → EReal) (x2 : S1x16.Idx → EReal) (x3 : S16x7.Idx → EReal)
    (L : S10000x10000.Idx → EReal) (S : Fin 10000 → Fin 16 → EReal) (B : S1x16.Idx → EReal) (W : S16x7.Idx → EReal)
    (p : Fin 400) (r : Fin 10000) (q : Fin 7)
    (h4 : ∀ l : Fin 10000, x4 (ix2 p l) = L (ix2 r l)) (hS : ∀ (l : Fin 10000) (h : Fin 16), xs (ix2 l h) = S l h)
    (h2 : ∀ y, x2 y = B y) (h3 : ∀ y, x3 y = W y) :
    (∑ h : Fin 16, max ((∑ l : Fin 10000, x4 (ix2 p l) * xs (ix2 l h)) + x2 (ix2 (0 : Fin 1) h)) Cert.Gcn.zero * x3 (ix2 h q))
      = ∑ h : Fin 16, max ((∑ l : Fin 10000, L (ix2 r l) * S l h) + B (ix2 (0 : Fin 1) h)) Cert.Gcn.zero * W (ix2 h q) := by
  simp only [h4, hS, h2, h3]

/-! ## The block index maps over the grid -/

/-- The four whole-array windows sit at block (0, 0) at every point; the stripe window and the two output windows at
    block row t - 1 (block row 0 at the first point too). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val - 1 ∧ win0_4.index t (1 : Fin 2) = 0
    ∧ win0_5.index t (0 : Fin 2) = t.val - 1 ∧ win0_5.index t (1 : Fin 2) = 0
    ∧ win0_6.index t (0 : Fin 2) = t.val - 1 ∧ win0_6.index t (1 : Fin 2) = 0 :=
  (by decide +kernel : ∀ t : Fin grid0.N, _)

/-- Both output blocks are written back at every point but the first. -/
theorem flush0_5 : ∀ t : Fin cfg0.N, t.val ≠ 0 → (cfg0.win 5).flush t = true := by decide +kernel
theorem flush0_6 : ∀ t : Fin cfg0.N, t.val ≠ 0 → (cfg0.win 6).flush t = true := by decide +kernel

/-! ## The windows' blocks read at an index -/

variable (V : (c : Dev nD) → (b : Ref sig .tc) → Buf (Elt Ideal) ((c : Thread nD τ).loc b))

theorem iblk_0 (c : Dev nD) (t : Fin cfg0.N) (y : S10000x128.Idx) : iblk0 V c 0 t y = V c main_arg1 y := by
  obtain ⟨e0, e1, -⟩ := idx_facts t
  have h : ((cfg0.win 0).blk t).view.emb y = y := by
    funext a; apply Fin.ext
    match a with
    | ⟨0, _⟩ => show win0_0.index t (0 : Fin 2) * 10000 + 1 * (y 0).val = (y 0).val; omega
    | ⟨1, _⟩ => show win0_0.index t (1 : Fin 2) * 128 + 1 * (y 1).val = (y 1).val; omega
  show V c main_arg1 (((cfg0.win 0).blk t).view.emb y) = V c main_arg1 y
  rw [h]

theorem iblk_1 (c : Dev nD) (t : Fin cfg0.N) (y : S128x16.Idx) : iblk0 V c 1 t y = V c main_arg2 y := by
  obtain ⟨-, -, e0, e1, -⟩ := idx_facts t
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 16 + 1 * (y 1).val = (y 1).val; omega
  show V c main_arg2 (((cfg0.win 1).blk t).view.emb y) = V c main_arg2 y
  rw [h]

theorem iblk_2 (c : Dev nD) (t : Fin cfg0.N) (y : S1x16.Idx) : iblk0 V c 2 t y = V c main_v0 y := by
  obtain ⟨-, -, -, -, e0, e1, -⟩ := idx_facts t
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 16 + 1 * (y 1).val = (y 1).val; omega
  show V c main_v0 (((cfg0.win 2).blk t).view.emb y) = V c main_v0 y
  rw [h]

theorem iblk_3 (c : Dev nD) (t : Fin cfg0.N) (y : S16x7.Idx) : iblk0 V c 3 t y = V c main_arg4 y := by
  obtain ⟨-, -, -, -, -, -, e0, e1, -⟩ := idx_facts t
  have h : ((cfg0.win 3).blk t).view.emb y = y := by
    funext a; apply Fin.ext
    match a with
    | ⟨0, _⟩ => show win0_3.index t (0 : Fin 2) * 16 + 1 * (y 0).val = (y 0).val; omega
    | ⟨1, _⟩ => show win0_3.index t (1 : Fin 2) * 7 + 1 * (y 1).val = (y 1).val; omega
  show V c main_arg4 (((cfg0.win 3).blk t).view.emb y) = V c main_arg4 y
  rw [h]

/-- Row p of the stripe at point t is row 400·(t - 1) + p of the operator. -/
theorem iblk_4 (c : Dev nD) (t : Fin cfg0.N) (p : Fin 400) (l : Fin 10000) (hr : (t.val - 1) * 400 + p.val < 10000) :
    iblk0 V c 4 t (ix2 p l) = V c main_arg0 (ix2 (⟨(t.val - 1) * 400 + p.val, hr⟩ : Fin 10000) l) := by
  obtain ⟨-, -, -, -, -, -, -, -, e0, e1, -⟩ := idx_facts t
  have h : ((cfg0.win 4).blk t).view.emb (ix2 p l) = ix2 (⟨(t.val - 1) * 400 + p.val, hr⟩ : Fin 10000) l := by
    funext a; apply Fin.ext
    match a with
    | ⟨0, _⟩ => show win0_4.index t (0 : Fin 2) * 400 + 1 * p.val = (t.val - 1) * 400 + p.val; omega
    | ⟨1, _⟩ => show win0_4.index t (1 : Fin 2) * 10000 + 1 * l.val = l.val; omega
  show V c main_arg0 (((cfg0.win 4).blk t).view.emb (ix2 p l)) = _
  rw [h]

/-- The first support, entry by entry, from the launch's entry contents. -/
theorem S1c_apply (c : Dev nD) (l : Fin 10000) (h : Fin 16) :
    S1c V c (ix2 l h) = Cert.Gcn.S1 (V c main_arg1) (V c main_arg2) l h := by
  unfold S1c Cert.Gcn.S1
  refine (s1of_apply (iblk0 V c 0 t0) (iblk0 V c 1 t0) l h).trans ?_
  refine Finset.sum_congr rfl fun p _ => ?_
  rw [iblk_0 V c t0 (ix2 l p), iblk_1 V c t0 (ix2 p h)]

/-! ## The two output arrays as whole-array functions -/

/-- The bias vector as the launch finds it: the one row of the reshaped bias array. -/
def b1row (c : Dev nD) : Cert.Gcn.Vect 16 := fun i => V c main_v0 (ix2 (0 : Fin 1) (⟨(i 0).val, (i 0).isLt⟩ : Fin 16))

/-- The second support, row by row. -/
def G5 (c : Dev nD) : S10000x7.Idx → EReal := fun i =>
  Cert.Gcn.S2 (V c main_arg0) (V c main_arg1) (V c main_arg2) (b1row V c) (V c main_arg4) ⟨(i 0).val, (i 0).isLt⟩ ⟨(i 1).val, (i 1).isLt⟩

theorem G5_apply (c : Dev nD) (k : Fin 10000) (j : Fin 7) :
    G5 V c (ix2 k j) = Cert.Gcn.S2 (V c main_arg0) (V c main_arg1) (V c main_arg2) (b1row V c) (V c main_arg4) k j := rfl

/-- The narrowed operator: the operator. -/
def G6 (c : Dev nD) : S10000x10000.Idx → EReal := fun i => V c main_arg0 i

/-- What point t ≥ 1 writes back into the second-support array is block row t - 1 of the second support. -/
theorem flushed5_eq (c : Dev nD) (t : Fin cfg0.N) (ht : t.val ≠ 0) :
    (dat0 V c).flushed 5 t = ((cfg0.win 5).blk t).view.read (Elt Ideal) (G5 V c) := by
  show (cfg0.win 5).cut (grid0.coords t) ((dat0 V c).after 5 t) = _
  rw [after0_5]
  have hN : t.val < 26 := lt_of_lt_of_eq t.isLt (show cfg0.N = 26 from N_0)
  obtain ⟨-, -, -, -, -, -, -, -, -, -, e0, e1, -⟩ := idx_facts t
  refine funext fun (y : S400x7.Idx) => ?_
  obtain ⟨p, q, rfl⟩ : ∃ (p : Fin 400) (q : Fin 7), y = ix2 p q := ⟨y 0, y 1, eq_ix2 y⟩
  have hr : (t.val - 1) * 400 + p.val < 10000 := by have := p.isLt; omega
  have hemb : ((cfg0.win 5).blk t).view.emb (ix2 p q) = ix2 (⟨(t.val - 1) * 400 + p.val, hr⟩ : Fin 10000) q := by
    funext a; apply Fin.ext
    match a with
    | ⟨0, _⟩ => show win0_5.index t (0 : Fin 2) * 400 + 1 * p.val = (t.val - 1) * 400 + p.val; omega
    | ⟨1, _⟩ => show win0_5.index t (1 : Fin 2) * 7 + 1 * q.val = q.val; omega
  show out0_5 (iblk0 V c 4 t) (S1c V c) (iblk0 V c 2 t) (iblk0 V c 3 t) (ix2 p q) = G5 V c (((cfg0.win 5).blk t).view.emb (ix2 p q))
  rw [hemb, G5_apply]
  refine (out0_5_apply (iblk0 V c 4 t) (S1c V c) (iblk0 V c 2 t) (iblk0 V c 3 t) p q).trans ?_
  refine (row_sum (iblk0 V c 4 t) (S1c V c) (iblk0 V c 2 t) (iblk0 V c 3 t) (V c main_arg0)
    (Cert.Gcn.S1 (V c main_arg1) (V c main_arg2)) (V c main_v0) (V c main_arg4) p ⟨(t.val - 1) * 400 + p.val, hr⟩ q
    (fun l => iblk_4 V c t p l hr) (S1c_apply V c) (iblk_2 V c t) (iblk_3 V c t)).trans ?_
  rfl

/-- What point t ≥ 1 writes back into the narrowed-operator array is block row t - 1 of the operator. -/
theorem flushed6_eq (c : Dev nD) (t : Fin cfg0.N) (ht : t.val ≠ 0) :
    (dat0 V c).flushed 6 t = ((cfg0.win 6).blk t).view.read (Elt Ideal) (G6 V c) := by
  show (cfg0.win 6).cut (grid0.coords t) ((dat0 V c).after 6 t) = _
  rw [after0_6]
  obtain ⟨-, -, -, -, -, -, -, -, e0, e1, -, -, e2, e3⟩ := idx_facts t
  refine funext fun (y : S400x10000.Idx) => ?_
  have hemb : ((cfg0.win 4).blk t).view.emb y = ((cfg0.win 6).blk t).view.emb y := by
    funext a; apply Fin.ext
    match a with
    | ⟨0, _⟩ => show win0_4.index t (0 : Fin 2) * 400 + 1 * (y 0).val = win0_6.index t (0 : Fin 2) * 400 + 1 * (y 0).val; omega
    | ⟨1, _⟩ => show win0_4.index t (1 : Fin 2) * 10000 + 1 * (y 1).val = win0_6.index t (1 : Fin 2) * 10000 + 1 * (y 1).val; omega
  show out0_6 (iblk0 V c 4 t) y = G6 V c (((cfg0.win 6).blk t).view.emb y)
  rw [out0_6_apply]
  show V c main_arg0 (((cfg0.win 4).blk t).view.emb y) = V c main_arg0 (((cfg0.win 6).blk t).view.emb y)
  rw [hemb]

/-! ## The cover: 25 blocks of 400 rows tile the 10000 rows -/

theorem mem_blk5 (t : Fin cfg0.N) (i : S10000x7.Idx) :
    i ∈ ((cfg0.win 5).blk t).view.set ↔ ∀ a : Fin 2, win0_5.index t a * S400x7.size a ≤ (i a).val ∧ (i a).val < win0_5.index t a * S400x7.size a + S400x7.size a := by
  show i ∈ ((View.whole main_v2_0).slice (win0_5.rect t)).set ↔ _
  rw [View.set_slice_whole, Rect.mem_set_unit]
  exact Iff.rfl

theorem mem_blk6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v2_1).slice (win0_6.rect t)).set ↔ _
  rw [View.set_slice_whole, Rect.mem_set_unit]
  exact Iff.rfl

theorem covered5 (i : S10000x7.Idx) : ∃ t : Fin cfg0.N, (cfg0.win 5).flush t = true ∧ i ∈ ((cfg0.win 5).blk t).view.set := by
  have hN : grid0.N = 26 := N_0
  have hN' : cfg0.N = 26 := N_0
  have hi0 : (i 0).val < 10000 := (i 0).isLt
  have hi1 : (i 1).val < 7 := (i 1).isLt
  obtain ⟨t, htv⟩ : ∃ t : Fin cfg0.N, t.val = (i 0).val / 400 + 1 := ⟨⟨(i 0).val / 400 + 1, by omega⟩, rfl⟩
  refine ⟨t, flush0_5 t (by omega), ?_⟩
  rw [mem_blk5]
  obtain ⟨-, -, -, -, -, -, -, -, -, -, e0, e1, -⟩ := idx_facts t
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 7 ≤ (i 1).val ∧ (i 1).val < win0_5.index t (1 : Fin 2) * 7 + 7; omega

theorem covered6 (i : S10000x10000.Idx) : ∃ t : Fin cfg0.N, (cfg0.win 6).flush t = true ∧ i ∈ ((cfg0.win 6).blk t).view.set := by
  have hN : grid0.N = 26 := N_0
  have hN' : cfg0.N = 26 := N_0
  have hi0 : (i 0).val < 10000 := (i 0).isLt
  have hi1 : (i 1).val < 10000 := (i 1).isLt
  obtain ⟨t, htv⟩ : ∃ t : Fin cfg0.N, t.val = (i 0).val / 400 + 1 := ⟨⟨(i 0).val / 400 + 1, by omega⟩, rfl⟩
  refine ⟨t, flush0_6 t (by omega), ?_⟩
  rw [mem_blk6]
  obtain ⟨-, -, -, -, -, -, -, -, -, -, -, -, e0, e1⟩ := idx_facts t
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 10000 ≤ (i 1).val ∧ (i 1).val < win0_6.index t (1 : Fin 2) * 10000 + 10000; omega

/-! ## The arrays after the launch -/

/-- The second-support array ends holding the second support. -/
theorem final5 (c : Dev nD) : (dat0 V c).arrAt 5 cfg0.N = G5 V c :=
  (dat0 V c).arrAt_eq_of_cover 5 (G5 V c) (fun t hf => flushed5_eq V c t (fun h0 => by
    have := noFlush0_5 t h0; rw [this] at hf; exact Bool.false_ne_true hf)) (covered5)

/-- The narrowed-operator array ends holding the operator. -/
theorem final6 (c : Dev nD) : (dat0 V c).arrAt 6 cfg0.N = G6 V c :=
  (dat0 V c).arrAt_eq_of_cover 6 (G6 V c) (fun t hf => flushed6_eq V c t (fun h0 => by
    have := noFlush0_6 t h0; rw [this] at hf; exact Bool.false_ne_true hf)) (covered6)

end Cert.KernelIdeal.Val0

end
-- ==== Proof.KI.Val1.lean ====
/-
  The second launch's result as one function of what the launch finds.

  The grid has 25 points. Point t is handed rows 400·t … 400·t + 399 of the (narrowed) operator, the whole second
  support and the whole bias row, and writes rows 400·t … 400·t + 399 of the result: at row p and column q of its
  block, row p of the stripe against column q of the support, plus the bias at q. Row p of stripe t is row 400·t + p
  of the operator, so what point t writes back is block t of one function G3 of the three arrays,
    G3[r, q] = Σ_k operator[r, k] · support[k, q] + bias[0, q],
  and since 25 · 400 = 10000 the blocks cover every row: after the launch the result array is G3.
  No law of arithmetic is used: the sum, the product and the addition are the ideal instance's own.
-/
import proofs.«129540_g70901320122454_cont_9to1_m_1154_12_alg».proof.Proof.KI.Region1
import proofs.«129540_g70901320122454_cont_9to1_m_1154_12_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Idealize.ShloMosaic Idealize.ShloMosaic.TcCoe Idealize.SL.Sem
open Idealize.ShloMosaic.Pipeline (Dat)
open Idealize.ShloMosaic.ValueIdx (ix2 eq_ix2 broadcastTo_1b_ab_apply)
open Cert.KernelIdeal Cert.KernelIdeal.Gen Cert.KernelIdeal.Hand

/-- The zero offsets of a whole-buffer access, as a constant function. -/
theorem zero_offsets : (![0, 0] : Fin 2 → Nat) = fun _ => 0 := funext fun a => by fin_cases a <;> rfl

/-! ## The body's payload at an index -/

/-- The block the body stores, at row p and column q: row p of the operator's stripe against column q of the second
    support, plus the bias row at q. -/
theorem out1_3_apply (x0 : FVec Ideal S400x10000 .bf16) (x1 : FVec Ideal S10000x7 .f32) (x2 : FVec Ideal S1x7 .f32)
    (p : Fin 400) (q : Fin 7) :
    out1_3 (F := Ideal) x0 x1 x2 (ix2 p q)
      = FloatOps.addf (F := Ideal) (φ := .f32) (∑ k : Fin 10000, x0 (ix2 p k) * x1 (ix2 k q)) (x2 (ix2 (0 : Fin 1) q)) := by
  unfold out1_3
  rw [View.canon_unit_zero zero_offsets]
  simp only [View.ld_unit_zero (S := S400x10000) zero_offsets, View.ld_unit_zero (S := S10000x7) zero_offsets,
    View.ld_unit_zero (S := S1x7) zero_offsets]
  unfold k1_pay1
  simp only [shapeCast_self]
  show FloatOps.addf (F := Ideal) (φ := .f32)
      (FloatOps.matmul (DotDims.plain 400 10000 7) none x0 x1 (constant (F := Ideal) ⟨2, ![400, 7]⟩ .f32 0x00000000#32) (ix2 p q))
      (broadcastTo ⟨2, ![400, 7]⟩ x2 broadcasts_S1x7_S400x7 (ix2 p q)) = _
  rw [Cert.LibPlainDot.matmul_zero_apply, broadcastTo_1b_ab_apply]

/-! ## The block index maps, decided over the 25 points -/

/-- At point t the operator's stripe and the result's block are block t along the rows; the second support and the
    bias row are whole. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

/-- The (narrowed) operator as the second launch finds it, as a 10000×10000 array of extended reals. -/
abbrev opnd (c : Dev nD) : S10000x10000.Idx → EReal := V c main_v2_1
/-- The second support as the second launch finds it, as a 10000×7 array of extended reals. -/
abbrev supp (c : Dev nD) : S10000x7.Idx → EReal := V c main_v2_0
/-- The bias row as the second launch finds it, as a 1×7 array of extended reals. -/
abbrev bias (c : Dev nD) : S1x7.Idx → EReal := V c main_v1

theorem opnd_eq (c : Dev nD) : opnd V c = V c main_v2_1 := rfl
theorem supp_eq (c : Dev nD) : supp V c = V c main_v2_0 := rfl
theorem bias_eq (c : Dev nD) : bias V c = V c main_v1 := rfl

/-- The result array as one function of the second launch's entry contents: row r of the (narrowed) operator against
    column q of the second support, plus the bias row at q. -/
def G3 (c : Dev nD) : Buf (Elt Ideal) ((c : Thread nD τ).loc main_v3) :=
  fun i => FloatOps.addf (F := Ideal) (φ := .f32)
    (∑ k : Fin 10000, opnd V c (ix2 (i 0) k) * supp V c (ix2 k (i 1))) (bias V c (ix2 (0 : Fin 1) (i 1)))

theorem G3_apply (c : Dev nD) (r : Fin 10000) (q : Fin 7) :
    G3 V c (ix2 r q) = FloatOps.addf (F := Ideal) (φ := .f32)
      (∑ k : Fin 10000, opnd V c (ix2 r k) * supp V c (ix2 k q)) (bias V c (ix2 (0 : Fin 1) q)) := rfl

/-! ## The input blocks read off the arrays -/

/-- Row p of the operator's stripe at point t is row 400·t + p of the operator. -/
theorem iblk0_at (c : Dev nD) (t : Fin cfg1.N) (p : Fin 400) (k : Fin 10000) (r : Fin 10000) (hr : r.val = t.val * 400 + p.val) :
    (iblk1 (F := Ideal) V c 0 t : S400x10000.Idx → EReal) (ix2 p k) = opnd V c (ix2 r k) := by
  obtain ⟨-, -, e0, e1, -⟩ := idx_facts t
  unfold iblk1
  rw [View.read_apply]
  show opnd V c _ = _
  refine congrArg _ (funext fun a => Fin.ext ?_)
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The second support's block is the whole array. -/
theorem iblk1_at (c : Dev nD) (t : Fin cfg1.N) (k : Fin 10000) (q : Fin 7) :
    (iblk1 (F := Ideal) V c 1 t : S10000x7.Idx → EReal) (ix2 k q) = supp V c (ix2 k q) := by
  obtain ⟨-, -, -, -, e0, e1, -⟩ := idx_facts t
  unfold iblk1
  rw [View.read_apply]
  show supp V c _ = _
  refine congrArg _ (funext fun a => Fin.ext ?_)
  match a with
  | ⟨0, _⟩ => show win1_1.index t (0 : Fin 2) * 10000 + 1 * k.val = k.val; rw [e0]; omega
  | ⟨1, _⟩ => show win1_1.index t (1 : Fin 2) * 7 + 1 * q.val = q.val; rw [e1]; omega

/-- The bias row's block is the whole row. -/
theorem iblk2_at (c : Dev nD) (t : Fin cfg1.N) (z : Fin 1) (q : Fin 7) :
    (iblk1 (F := Ideal) V c 2 t : S1x7.Idx → EReal) (ix2 z q) = bias V c (ix2 z q) := by
  obtain ⟨-, -, -, -, -, -, e0, e1⟩ := idx_facts t
  unfold iblk1
  rw [View.read_apply]
  show bias V c _ = _
  refine congrArg _ (funext fun a => Fin.ext ?_)
  match a with
  | ⟨0, _⟩ => show win1_2.index t (0 : Fin 2) * 1 + 1 * z.val = z.val; rw [e0]; omega
  | ⟨1, _⟩ => show win1_2.index t (1 : Fin 2) * 7 + 1 * q.val = q.val; rw [e1]; omega

/-! ## What each point writes back, and the whole array -/

/-- Point t writes back block t of G3. -/
theorem flushed_eq (c : Dev nD) (t : Fin cfg1.N) :
    (dat1 (F := Ideal) V c).flushed 3 t = ((cfg1.win 3).blk t).view.read (Elt Ideal) (G3 V c) := by
  show (cfg1.win 3).cut (grid1.coords t) ((dat1 (F := Ideal) V c).after 3 t) = _
  rw [after1_3]
  obtain ⟨e0, e1, -⟩ := idx_facts t
  have ht : t.val < 25 := lt_of_lt_of_eq t.isLt N_1
  funext y
  have hy0 : (y 0).val < 400 := (y 0).isLt
  have hy1 : (y 1).val < 7 := (y 1).isLt
  have hx : (cfg1.win 3).xinj (grid1.coords t) y = ix2 (⟨(y 0).val, hy0⟩ : Fin 400) (⟨(y 1).val, hy1⟩ : Fin 7) :=
    funext fun a => Fin.ext (by match a with | ⟨0, _⟩ => rfl | ⟨1, _⟩ => rfl)
  have he : ((cfg1.win 3).blk t).view.emb y = ix2 (⟨t.val * 400 + (y 0).val, by omega⟩ : Fin 10000) (⟨(y 1).val, hy1⟩ : Fin 7) :=
    funext fun a => Fin.ext (by
      match a with
      | ⟨0, _⟩ => show win1_3.index t (0 : Fin 2) * 400 + 1 * (y 0).val = t.val * 400 + (y 0).val; rw [e0]; omega
      | ⟨1, _⟩ => show win1_3.index t (1 : Fin 2) * 7 + 1 * (y 1).val = (y 1).val; rw [e1]; omega)
  show out1_3 (F := Ideal) (iblk1 V c 0 t) (iblk1 V c 1 t) (iblk1 V c 2 t) ((cfg1.win 3).xinj (grid1.coords t) y)
    = G3 V c (((cfg1.win 3).blk t).view.emb y)
  rw [hx, he, out1_3_apply, G3_apply]
  refine congrArg₂ _ (Finset.sum_congr rfl fun k _ => congrArg₂ _ ?_ ?_) ?_
  · exact iblk0_at V c t _ k _ rfl
  · exact iblk1_at V c t k _
  · exact iblk2_at V c t _ _

/-- Every row of the result lies in the block of the point its quotient by 400 names. -/
theorem cover (c : Dev nD) (i : S10000x7.Idx) :
    ∃ t : Fin cfg1.N, (cfg1.win 3).flush t = true ∧ i ∈ ((cfg1.win 3).blk t).view.set := by
  have hi0 : (i 0).val < 10000 := (i 0).isLt
  have hi1 : (i 1).val < 7 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  obtain ⟨e0, e1, -⟩ := idx_facts t
  refine ⟨t, flush1_3 t, ?_⟩
  show i ∈ ((View.whole main_v3).slice (win1_3.rect t)).set
  rw [View.set_slice_whole, Rect.mem_set_unit]
  intro a
  match a with
  | ⟨0, _⟩ =>
    show win1_3.index t (0 : Fin 2) * 400 ≤ (i 0).val ∧ (i 0).val < win1_3.index t (0 : Fin 2) * 400 + 400
    rw [e0, ht]; omega
  | ⟨1, _⟩ =>
    show win1_3.index t (1 : Fin 2) * 7 ≤ (i 1).val ∧ (i 1).val < win1_3.index t (1 : Fin 2) * 7 + 7
    rw [e1]; omega

/-- After the second launch the result array holds G3 of the entry contents. -/
theorem final1 (c : Dev nD) : (dat1 (F := Ideal) V c).arrAt 3 cfg1.N = G3 V c :=
  (dat1 (F := Ideal) V c).arrAt_eq_of_cover 3 (G3 V c) (fun t _ => flushed_eq V c t) (cover c)

end Cert.KernelIdeal.Val1

end
-- ==== Proof.KI.Val.lean ====
/-
  The kernel's result is the specification, at the ideal float instance.

  The contents of the core's buffers are followed through @main. The two host reshapes turn the bias vectors into
  one-row arrays: row 0 of each is the vector. The first launch leaves the second support S2 in one output array and the
  operator itself (narrowed, which changes nothing here) in the other; the second launch reads both, with the second
  bias row, and leaves in the result array, at (r, q), the sum over k of L[r, k] · S2[k, q] plus b2[q] — the logits.
  So the run ends with the result array at the specification of the six arguments, and the arguments as launched.
-/
import proofs.«129540_g70901320122454_cont_9to1_m_1154_12_alg».proof.Proof.KI.Run
import proofs.«129540_g70901320122454_cont_9to1_m_1154_12_alg».proof.Proof.KI.Val0
import proofs.«129540_g70901320122454_cont_9to1_m_1154_12_alg».proof.Proof.KI.Val1
import proofs.«129540_g70901320122454_cont_9to1_m_1154_12_alg».proof.Proof.Spec
import Idealize.ShloMosaic.Lib.StableHlo.Run
import Idealize.ShloMosaic.Lib.ValueLayout

set_option maxRecDepth 16384

noncomputable section

open scoped BigOperators

namespace Cert.KernelIdeal.Val

open Idealize.ShloMosaic Idealize.ShloMosaic.TcCoe Idealize.SL.Sem Idealize.ShloMosaic.StableHlo
open Idealize.ShloMosaic.ValueIdx (ix1 ix2 eq_ix1 eq_ix2 shapeCast_a_1a_apply)
open Cert.KernelIdeal Cert.KernelIdeal.Gen Cert.KernelIdeal.Hand Cert.KernelIdeal.Val0 Cert.KernelIdeal.Val1

variable (m : (ℓ : Loc nD τ sig) → Buf (Elt Ideal) ℓ) (ρ : Dev nD → PrngReg)

/-! ## After the host reshapes -/

/-- The first bias as a one-row array. -/
theorem Vr1_v0 (c : Dev nD) :
    (Vr1 m c main_v0 : S1x16.Idx → EReal) = shapeCast S1x16 (m ((c : Thread nD τ).loc main_arg3)) shapeCasts_S16_S1x16 := by
  show StableHlo.after hostOps0 (fun b => m (c, b)) (Proc.devRef .tc main_v0) = _
  after_results; rfl

/-- The second bias as a one-row array. -/
theorem Vr1_v1 (c : Dev nD) :
    (Vr1 m c main_v1 : S1x7.Idx → EReal) = shapeCast S1x7 (m ((c : Thread nD τ).loc main_arg5)) shapeCasts_S7_S1x7 := by
  show StableHlo.after hostOps0 (fun b => m (c, b)) (Proc.devRef .tc main_v1) = _
  after_results; rfl

theorem Vr1_arg0 (c : Dev nD) : Vr1 m c main_arg0 = m ((c : Thread nD τ).loc main_arg0) := Wl1_of m c main_arg0 (by decide)
theorem Vr1_arg1 (c : Dev nD) : Vr1 m c main_arg1 = m ((c : Thread nD τ).loc main_arg1) := Wl1_of m c main_arg1 (by decide)
theorem Vr1_arg2 (c : Dev nD) : Vr1 m c main_arg2 = m ((c : Thread nD τ).loc main_arg2) := Wl1_of m c main_arg2 (by decide)
theorem Vr1_arg4 (c : Dev nD) : Vr1 m c main_arg4 = m ((c : Thread nD τ).loc main_arg4) := Wl1_of m c main_arg4 (by decide)

/-- Row 0 of the first one-row array is the first bias. -/
theorem b1row_eq (c : Dev nD) : b1row (Vr1 m) c = m ((c : Thread nD τ).loc main_arg3) := by
  funext i
  obtain ⟨h, rfl⟩ : ∃ h : Fin 16, i = ix1 h := ⟨i 0, eq_ix1 i⟩
  show (Vr1 m c main_v0 : S1x16.Idx → EReal) (ix2 (0 : Fin 1) h) = _
  rw [Vr1_v0]
  exact shapeCast_a_1a_apply _ _ 0 h

/-! ## After the first launch -/

theorem Vr2_v2_0 (c : Dev nD) : Vr2 m c main_v2_0 = G5 (Vr1 m) c := (Wl2_arr m c 5).trans (final5 (Vr1 m) c)
theorem Vr2_v2_1 (c : Dev nD) : Vr2 m c main_v2_1 = G6 (Vr1 m) c := (Wl2_arr m c 6).trans (final6 (Vr1 m) c)
theorem Vr2_v1 (c : Dev nD) : Vr2 m c main_v1 = Vr1 m c main_v1 := Wl2_of_ne m c main_v1 (by decide)

/-! ## After the second launch -/

/-- The result array at the last boundary is the specification of the launch contents of the six arguments. -/
theorem result_eq (c : Dev nD) :
    Wl3 m c (Proc.devRef .tc main_v3)
      = Cert.Gcn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((Wl3_arr m c 3).trans (final1 (Vr2 m) c)).trans ?_
  funext i
  obtain ⟨r, q, rfl⟩ : ∃ (r : Fin 10000) (q : Fin 7), i = ix2 r q := ⟨i 0, i 1, eq_ix2 i⟩
  rw [G3_apply, Cert.Gcn.G_apply]
  unfold Cert.Gcn.logit
  have h6 : opnd (Vr2 m) c = m ((c : Thread nD τ).loc main_arg0) :=
    (Vr2_v2_1 m c).trans (show G6 (Vr1 m) c = _ from Vr1_arg0 m c)
  have h5 : ∀ k : Fin 10000, supp (Vr2 m) c (ix2 k q)
      = Cert.Gcn.S2 (m ((c : Thread nD τ).loc main_arg0)) (m ((c : Thread nD τ).loc main_arg1)) (m ((c : Thread nD τ).loc main_arg2))
          (m ((c : Thread nD τ).loc main_arg3)) (m ((c : Thread nD τ).loc main_arg4)) k q := fun k => by
    rw [supp_eq, Vr2_v2_0, G5_apply, Vr1_arg0, Vr1_arg1, Vr1_arg2, Vr1_arg4, b1row_eq]
  have hb : bias (Vr2 m) c (ix2 (0 : Fin 1) q) = m ((c : Thread nD τ).loc main_arg5) (ix1 q) := by
    rw [bias_eq, Vr2_v1]
    show (Vr1 m c main_v1 : S1x7.Idx → EReal) (ix2 (0 : Fin 1) q) = _
    rw [Vr1_v1]
    exact shapeCast_a_1a_apply _ _ 0 q
  simp only [h6, h5, hb]

/-- Every weakly fair execution of the kernel's program terminates with the result array at the specification of
    its arguments and the arguments as launched. -/
theorem run_G : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v3)
        = Cert.Gcn.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (Cert.KernelIdeal.Hand.run m ρ)

end Cert.KernelIdeal.Val

end
-- ==== Proof.RefIsG.lean ====
/-
  The reference computes the specification.

  Read one operation at a time, the reference's result at row r, column j is
    Σ_k L[r, k] · (Σ_h max (Σ_l L[k, l] · (Σ_p X[l, p] · W1[p, h]) + b1[h], 0) · W2[h, j]) + b2[j],
  which is the specification's expression term for term: each matrix product reads its left operand along a row
  and its right operand along a column, each broadcast of a bias reads the bias at the column, and the constant the
  hidden layer is clamped at is the value of the all-zero f32 word. Only index functions have to be identified;
  no law of arithmetic is used.
-/
import proofs.«129540_g70901320122454_cont_9to1_m_1154_12_alg».proof.Proof.Gen.ReferenceIdeal.Read
import proofs.«129540_g70901320122454_cont_9to1_m_1154_12_alg».proof.Proof.Spec
import Idealize.ShloMosaic.Lib.ValueIdx
import Idealize.ShloMosaic.Lib.StableHlo.Run

noncomputable section

open scoped BigOperators

namespace Cert.RefValue

open Idealize.ShloMosaic Idealize.ShloMosaic.TcCoe Idealize.SL.Sem Cert.ReferenceIdeal
open Idealize.ShloMosaic.ValueIdx (ix1 ix2 eq_ix2)

/-! ## The index each operation reads its operands at, for a result index given by its two coordinates

Every coordinate below is a variable of a literal `Fin n` type, so each equation holds axis by axis by unfolding. -/

/-- First product, left operand: row l of the features, column p. -/
theorem lidx_v0 (l : Fin 10000) (h : Fin 16) (p : Fin 128) : Read.lidx_main_v0 (ix2 l h) p = ix2 l p :=
  funext fun a => Fin.ext (by match a with | ⟨0, _⟩ => rfl | ⟨1, _⟩ => rfl)
/-- First product, right operand: row p of the first weights, column h. -/
theorem ridx_v0 (l : Fin 10000) (h : Fin 16) (p : Fin 128) : Read.ridx_main_v0 (ix2 l h) p = ix2 p h :=
  funext fun a => Fin.ext (by match a with | ⟨0, _⟩ => rfl | ⟨1, _⟩ => rfl)
/-- Second product, left operand: row k of the operator, column l. -/
theorem lidx_v1 (k : Fin 10000) (h : Fin 16) (l : Fin 10000) : Read.lidx_main_v1 (ix2 k h) l = ix2 k l :=
  funext fun a => Fin.ext (by match a with | ⟨0, _⟩ => rfl | ⟨1, _⟩ => rfl)
/-- Second product, right operand: row l of the first support, column h. -/
theorem ridx_v1 (k : Fin 10000) (h : Fin 16) (l : Fin 10000) : Read.ridx_main_v1 (ix2 k h) l = ix2 l h :=
  funext fun a => Fin.ext (by match a with | ⟨0, _⟩ => rfl | ⟨1, _⟩ => rfl)
/-- The first bias, broadcast to a row and then to all rows, is read at the column. -/
theorem idx_v3_v2 (k : Fin 10000) (h : Fin 16) : Read.idx_main_v2 (Read.idx_main_v3 (ix2 k h)) = ix1 h :=
  funext fun a => Fin.ext (by match a with | ⟨0, _⟩ => rfl)
/-- Third product, left operand: row k of the hidden layer, column h. -/
theorem lidx_v6 (k : Fin 10000) (j : Fin 7) (h : Fin 16) : Read.lidx_main_v6 (ix2 k j) h = ix2 k h :=
  funext fun a => Fin.ext (by match a with | ⟨0, _⟩ => rfl | ⟨1, _⟩ => rfl)
/-- Third product, right operand: row h of the second weights, column j. -/
theorem ridx_v6 (k : Fin 10000) (j : Fin 7) (h : Fin 16) : Read.ridx_main_v6 (ix2 k j) h = ix2 h j :=
  funext fun a => Fin.ext (by match a with | ⟨0, _⟩ => rfl | ⟨1, _⟩ => rfl)
/-- Fourth product, left operand: row r of the operator, column k. -/
theorem lidx_v7 (r : Fin 10000) (j : Fin 7) (k : Fin 10000) : Read.lidx_main_v7 (ix2 r j) k = ix2 r k :=
  funext fun a => Fin.ext (by match a with | ⟨0, _⟩ => rfl | ⟨1, _⟩ => rfl)
/-- Fourth product, right operand: row k of the second support, column j. -/
theorem ridx_v7 (r : Fin 10000) (j : Fin 7) (k : Fin 10000) : Read.ridx_main_v7 (ix2 r j) k = ix2 k j :=
  funext fun a => Fin.ext (by match a with | ⟨0, _⟩ => rfl | ⟨1, _⟩ => rfl)
/-- The second bias, broadcast to a row and then to all rows, is read at the column. -/
theorem idx_v9_v8 (r : Fin 10000) (j : Fin 7) : Read.idx_main_v8 (Read.idx_main_v9 (ix2 r j)) = ix1 j :=
  funext fun a => Fin.ext (by match a with | ⟨0, _⟩ => rfl)

/-! ## The stages, innermost first -/

section Stages

variable (x0 : (⟨S10000x10000, .f32⟩ : BufTy).Contents (Elt Ideal)) (x1 : (⟨S10000x128, .f32⟩ : BufTy).Contents (Elt Ideal))
  (x2 : (⟨S128x16, .f32⟩ : BufTy).Contents (Elt Ideal)) (x3 : (⟨S16, .f32⟩ : BufTy).Contents (Elt Ideal))
  (x4 : (⟨S16x7, .f32⟩ : BufTy).Contents (Elt Ideal)) (x5 : (⟨S7, .f32⟩ : BufTy).Contents (Elt Ideal))

/-- The first product is the first support. -/
theorem v0_at (l : Fin 10000) (h : Fin 16) :
    Read.val_main_v0 (F := Ideal) x1 x2 (ix2 l h) = Cert.Gcn.S1 x1 x2 l h := by
  rw [Read.val_main_v0_apply]
  unfold Cert.Gcn.S1
  exact Finset.sum_congr rfl fun p _ => by rw [lidx_v0, ridx_v0]

/-- The second product is the operator applied to the first support. -/
theorem v1_at (k : Fin 10000) (h : Fin 16) :
    Read.val_main_v1 (F := Ideal) x0 x1 x2 (ix2 k h) = ∑ l : Fin 10000, x0 (ix2 k l) * Cert.Gcn.S1 x1 x2 l h := by
  rw [Read.val_main_v1_apply]
  exact Finset.sum_congr rfl fun l _ => by rw [lidx_v1, ridx_v1, v0_at]

/-- The broadcast first bias at row k, column h is the bias at h. -/
theorem v3_at (k : Fin 10000) (h : Fin 16) : Read.val_main_v3 (F := Ideal) x3 (ix2 k h) = x3 (ix1 h) := by
  rw [Read.val_main_v3_apply, Read.val_main_v2_apply, idx_v3_v2]

/-- The clamped sum is the hidden layer. -/
theorem v5_at (k : Fin 10000) (h : Fin 16) :
    Read.val_main_v5 (F := Ideal) x0 x1 x2 x3 (ix2 k h) = Cert.Gcn.H x0 x1 x2 x3 k h := by
  rw [Read.val_main_v5_apply, Read.val_main_v4_apply, v1_at, v3_at, Read.val_main_call0_v0_apply,
    Read.val_main_call0_cst_apply]
  rfl

/-- The third product is the second support. -/
theorem v6_at (k : Fin 10000) (j : Fin 7) :
    Read.val_main_v6 (F := Ideal) x0 x1 x2 x3 x4 (ix2 k j) = Cert.Gcn.S2 x0 x1 x2 x3 x4 k j := by
  rw [Read.val_main_v6_apply]
  unfold Cert.Gcn.S2
  exact Finset.sum_congr rfl fun h _ => by rw [lidx_v6, ridx_v6, v5_at]

/-- The fourth product is the operator applied to the second support. -/
theorem v7_at (r : Fin 10000) (j : Fin 7) :
    Read.val_main_v7 (F := Ideal) x0 x1 x2 x3 x4 (ix2 r j)
      = ∑ k : Fin 10000, x0 (ix2 r k) * Cert.Gcn.S2 x0 x1 x2 x3 x4 k j := by
  rw [Read.val_main_v7_apply]
  exact Finset.sum_congr rfl fun k _ => by rw [lidx_v7, ridx_v7, v6_at]

/-- The broadcast second bias at row r, column j is the bias at j. -/
theorem v9_at (r : Fin 10000) (j : Fin 7) : Read.val_main_v9 (F := Ideal) x5 (ix2 r j) = x5 (ix1 j) := by
  rw [Read.val_main_v9_apply, Read.val_main_v8_apply, idx_v9_v8]

/-- The last sum is the logit. -/
theorem v10_at (r : Fin 10000) (j : Fin 7) :
    Read.val_main_v10 (F := Ideal) x0 x1 x2 x3 x4 x5 (ix2 r j) = Cert.Gcn.logit x0 x1 x2 x3 x4 x5 r j := by
  rw [Read.val_main_v10_apply, v7_at, v9_at]
  rfl

end Stages

/-- The reference's composed term is the specification, index by index. -/
theorem ref_is_G (x0 : (⟨S10000x10000, .f32⟩ : BufTy).Contents (Elt Ideal)) (x1 : (⟨S10000x128, .f32⟩ : BufTy).Contents (Elt Ideal))
    (x2 : (⟨S128x16, .f32⟩ : BufTy).Contents (Elt Ideal)) (x3 : (⟨S16, .f32⟩ : BufTy).Contents (Elt Ideal))
    (x4 : (⟨S16x7, .f32⟩ : BufTy).Contents (Elt Ideal)) (x5 : (⟨S7, .f32⟩ : BufTy).Contents (Elt Ideal)) :
    Cert.ReferenceIdeal.Read.val_main_v10 (F := Ideal) x0 x1 x2 x3 x4 x5 = Cert.Gcn.G x0 x1 x2 x3 x4 x5 := by
  funext i
  obtain ⟨r, j, rfl⟩ : ∃ (r : Fin 10000) (j : Fin 7), i = ix2 r j := ⟨i 0, i 1, eq_ix2 i⟩
  rw [v10_at, Cert.Gcn.G_apply]

/-- The reference's run: it terminates with its result at the specification of its arguments, the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v10) = Cert.Gcn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono
    (fun _ h c => ⟨by rw [(h c).1, Read.val_main_v10_eq, ref_is_G], (h c).2⟩)
    (Cert.ReferenceIdeal.Value.run (F := Ideal) m ρ)

end Cert.RefValue

end
-- ==== Proof.lean ====
/-
  The certificate: a two-layer graph convolution, logits = L · (relu (L · (X · W1) + b1) · W2) + b2, over a dense
  10000×10000 operator L, computed by two launches — the first streams L by stripes of 400 rows, keeps X · W1 in a
  scratch buffer from its first grid point on, and emits rows of the second support relu(…) · W2 together with a
  narrowed copy of each stripe; the second multiplies the narrowed stripes by the second support and adds b2 — against
  the same expression evaluated whole.

  Frames. Each of the kernel's two programs (the word-level one and its idealization; their text is the same) runs to
  the end, faults nowhere and leaves its six arguments as launched: @main is two host reshapes and the two launches,
  taken as three segments; what every staging buffer holds after the body at every grid point is named, the first
  launch's invariant records that the scratch holds X · W1 after the first point, and no segment writes an argument.
  The reference's frame is its run with the result dropped.
  Idealization. The ideal pass rewrote nothing, so the idealized kernel is the kernel's own text read at the ideal
  instance and there is nothing to preserve.
  Values. At the ideal instance a change of float format is the identity, a matmul into a zero accumulator and a host
  dot_general are the same finite sum, and the two programs evaluate one expression with one association: the result
  array of both is the specification of Proof/Spec.lean, index by index. No law of arithmetic and no finiteness of
  the inputs is used; the 25 stripes of 400 rows tile the 10000 rows.
-/
import proofs.«129540_g70901320122454_cont_9to1_m_1154_12_alg».proof.Defs
import proofs.«129540_g70901320122454_cont_9to1_m_1154_12_alg».proof.Proof.Gen.Kernel
import proofs.«129540_g70901320122454_cont_9to1_m_1154_12_alg».proof.Proof.Gen.KernelIdeal
import proofs.«129540_g70901320122454_cont_9to1_m_1154_12_alg».proof.Proof.Gen.ReferenceIdeal
import proofs.«129540_g70901320122454_cont_9to1_m_1154_12_alg».proof.Proof.Gen.Pre_finite_inputs
import proofs.«129540_g70901320122454_cont_9to1_m_1154_12_alg».proof.Proof.K.Run
import proofs.«129540_g70901320122454_cont_9to1_m_1154_12_alg».proof.Proof.KI.Val
import proofs.«129540_g70901320122454_cont_9to1_m_1154_12_alg».proof.Proof.RefIsG
import Idealize.ShloMosaic.Adequacy
import Idealize.ShloMosaic.Init

noncomputable section

namespace Cert.Proof

open Idealize.ShloMosaic Idealize.SL.Sem

/-- The word-level kernel runs and its arguments end unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and its arguments end unchanged: its run, the result dropped. -/
theorem frame_ri : Cert.frame_ReferenceIdeal := fun m ρ _ =>
  (θ_run Cert.ReferenceIdeal.defs _ _).mono (fun _ h c => (h c).2) (Cert.RefValue.ref_run m ρ)

/-- From memories agreeing on the arguments both programs end with the result array at the specification of the
    arguments: the kernel's by following its buffers through the two launches, the reference's by reading its
    thirteen operations at an index. -/
theorem algebraic : Cert.algebraic_KernelIdeal_ReferenceIdeal := by
  intro m ρ m' ρ' _ hagree
  refine ⟨fun c => Cert.Gcn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Val.run_G m ρ, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
